-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x128 : Shape := ⟨3, ![50000, 1, 128]⟩
abbrev S640000x1x128 : Shape := ⟨3, ![640000, 1, 128]⟩
abbrev S128x256 : Shape := ⟨2, ![128, 256]⟩
abbrev S128 : Shape := ⟨1, ![128]⟩
abbrev S640000 : Shape := ⟨1, ![640000]⟩
abbrev S_ : Shape := ⟨0, ![]⟩

class Facts : Prop where
  bcast_S_S50000x1x128 : S_.BroadcastsInDim S50000x1x128 (![] : Fin 0 → Fin S50000x1x128.rank)
  reducesTo_S50000x1x128_S_d0_1_2 : S50000x1x128.ReducesTo [0, 1, 2] S_
  h_S_ : 0 < S_.numel
  bcast_S_S640000x1x128 : S_.BroadcastsInDim S640000x1x128 (![] : Fin 0 → Fin S640000x1x128.rank)
  reducesTo_S640000x1x128_S_d0_1_2 : S640000x1x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x1x128 .f32) (main_arg1 : FVec F S640000x1x128 .f32) (main_arg2 : FVec F S128x256 .f32) (main_arg3 : FVec F S128 .f32) (main_arg4 : FVec F S128x256 .f32) (main_arg5 : FVec F S128 .f32) (main_arg6 : IVec S640000 32) (main_arg7 : IVec S640000 32) : IVec S_ 1 :=
  let main_v0 : FVec F S50000x1x128 .f32 := Host.absf main_arg0
  let main_cst : FVec F S_ .f32 := constant S_ .f32 0x7F800000#32
  let main_v1 : FVec F S50000x1x128 .f32 := broadcastInDim S50000x1x128 ![] bcast_S_S50000x1x128 main_cst
  let main_v2 : IVec S50000x1x128 1 := cmpf .olt main_v0 main_v1
  let main_c : IVec S_ 1 := constantI S_ 1 1#1
  let main_v3 : IVec S_ 1 := (fun x v => Host.reduce IntOp.andi x v reducesTo_S50000x1x128_S_d0_1_2 h_S_) main_v2 main_c
  let main_v4 : FVec F S640000x1x128 .f32 := Host.absf main_arg1
  let main_cst_0 : FVec F S_ .f32 := constant S_ .f32 0x7F800000#32
  let main_v5 : FVec F S640000x1x128 .f32 := broadcastInDim S640000x1x128 ![] bcast_S_S640000x1x128 main_cst_0
  let main_v6 : IVec S640000x1x128 1 := cmpf .olt main_v4 main_v5
  let main_c_1 : IVec S_ 1 := constantI S_ 1 1#1
  let main_v7 : IVec S_ 1 := (fun x v => Host.reduce IntOp.andi x v reducesTo_S640000x1x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x1x128 : Shape := ⟨3, ![50000, 1, 128]⟩
abbrev S640000x1x128 : Shape := ⟨3, ![640000, 1, 128]⟩
abbrev S128x256 : Shape := ⟨2, ![128, 256]⟩
abbrev S128 : Shape := ⟨1, ![128]⟩
abbrev S640000 : Shape := ⟨1, ![640000]⟩
abbrev S50000x128 : Shape := ⟨2, ![50000, 128]⟩
abbrev S640000x128 : Shape := ⟨2, ![640000, 128]⟩
abbrev S_ : Shape := ⟨0, ![]⟩
abbrev S640000x1 : Shape := ⟨2, ![640000, 1]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 46
  | .vmem => 16
  | .smem => 0
  | _ => 0

abbrev bufTy : (tb : Table) → Fin (tcTables nBuf tb) → BufTy
  | .hbm, ⟨0, _⟩ => ⟨S50000x1x128, .f32⟩
  | .hbm, ⟨1, _⟩ => ⟨S640000x1x128, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S50000x128, .f32⟩
  | .hbm, ⟨9, _⟩ => ⟨S640000x128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S50000x128, .f32⟩
  | .hbm, ⟨21, _⟩ => ⟨S640000x1, .i32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S50000, .f32⟩
  | .hbm, ⟨31, _⟩ => ⟨S640000x1, .i32⟩
  | .hbm, ⟨32, _⟩ => ⟨S50000, .f32⟩
  | .hbm, ⟨33, _⟩ => ⟨S50000x1, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S50000x128, .f32⟩
  | .hbm, ⟨45, _⟩ => ⟨S50000x1x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x1, .f32⟩
  | .local _ .vmem, ⟨7, _⟩ => ⟨S10000x1, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S50000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S50000x1x128_S50000x128 : S50000x1x128.ShapeCasts S50000x128
  shapeCasts_S640000x1x128_S640000x128 : S640000x1x128.ShapeCasts S640000x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S10000x1_S10000x128 : S10000x1.Broadcasts S10000x128
  broadcasts_S1x128_S10000x128 : S1x128.Broadcasts S10000x128
  shapeCasts_S50000x128_S50000x1x128 : S50000x128.ShapeCasts S50000x1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S50000x1.size a
  hwx0_3 : ∀ i : grid0.Coords, EltTy.bits .f32 = 32 ∨ (Rect.block (s := S50000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x128.size a ≤ S50000x128.size a
  hwx0_10 : ∀ i : grid0.Coords, EltTy.bits .f32 = 32 ∨ (Rect.block (s := S50000x128) S10000x128.size (cc0_transform_10 i) (hinb0_10 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S10000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x1x128 : Shape := ⟨3, ![50000, 1, 128]⟩
abbrev S640000x1x128 : Shape := ⟨3, ![640000, 1, 128]⟩
abbrev S128x256 : Shape := ⟨2, ![128, 256]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x1x256 : Shape := ⟨3, ![640000, 1, 256]⟩
abbrev S1x1x128 : Shape := ⟨3, ![1, 1, 128]⟩
abbrev S50000 : Shape := ⟨1, ![50000]⟩
abbrev S50000x1x1 : Shape := ⟨3, ![50000, 1, 1]⟩
abbrev S50000x1x256 : Shape := ⟨3, ![50000, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S50000x1x128, .f32⟩
  | .hbm, ⟨1, _⟩ => ⟨S640000x1x128, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x1x128, .f32⟩
  | .hbm, ⟨17, _⟩ => ⟨S640000x1x256, .f32⟩
  | .hbm, ⟨18, _⟩ => ⟨S640000x1x128, .f32⟩
  | .hbm, ⟨19, _⟩ => ⟨S1x1x128, .f32⟩
  | .hbm, ⟨20, _⟩ => ⟨S640000x1x128, .f32⟩
  | .hbm, ⟨21, _⟩ => ⟨S640000x1x128, .f32⟩
  | .hbm, ⟨22, _⟩ => ⟨S_, .f32⟩
  | .hbm, ⟨23, _⟩ => ⟨S50000x1x128, .f32⟩
  | .hbm, ⟨24, _⟩ => ⟨S640000x1, .i32⟩
  | .hbm, ⟨25, _⟩ => ⟨S50000x1x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S50000, .f32⟩
  | .hbm, ⟨30, _⟩ => ⟨S640000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1x1, .f32⟩
  | .hbm, ⟨36, _⟩ => ⟨S50000x1x128, .f32⟩
  | .hbm, ⟨37, _⟩ => ⟨S50000x1x128, .f32⟩
  | .hbm, ⟨38, _⟩ => ⟨S50000x1x256, .f32⟩
  | .hbm, ⟨39, _⟩ => ⟨S50000x1x128, .f32⟩
  | .hbm, ⟨40, _⟩ => ⟨S1x1x128, .f32⟩
  | .hbm, ⟨41, _⟩ => ⟨S50000x1x128, .f32⟩
  | .hbm, ⟨42, _⟩ => ⟨S50000x1x128, .f32⟩
  | .hbm, ⟨43, _⟩ => ⟨S_, .f32⟩
  | .hbm, ⟨44, _⟩ => ⟨S50000x1x128, .f32⟩
  | .hbm, ⟨45, _⟩ => ⟨S50000x1x128, .f32⟩
  | _, _ => ⟨S50000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x1x128_S640000x1x128_S640000x1x256_d2 : Shape.Concatenates [S640000x1x128, S640000x1x128] S640000x1x256 2
  bcast_S128_S1x1x128_2 : S128.BroadcastsInDim S1x1x128 (![2] : Fin 1 → Fin S1x1x128.rank)
  bcast_S1x1x128_S640000x1x128_0_1_2 : S1x1x128.BroadcastsInDim S640000x1x128 (![0, 1, 2] : Fin 3 → Fin S640000x1x128.rank)
  bcast_S_S50000x1x128 : S_.BroadcastsInDim S50000x1x128 (![] : Fin 0 → Fin S50000x1x128.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x1x128_0_1_2 : S50000x1x1.BroadcastsInDim S50000x1x128 (![0, 1, 2] : Fin 3 → Fin S50000x1x128.rank)
  concatenates_S50000x1x128_S50000x1x128_S50000x1x256_d2 : Shape.Concatenates [S50000x1x128, S50000x1x128] S50000x1x256 2
  bcast_S1x1x128_S50000x1x128_0_1_2 : S1x1x128.BroadcastsInDim S50000x1x128 (![0, 1, 2] : Fin 3 → Fin S50000x1x128.rank)
  gather_S50000x1x128_S640000x1_S640000x1x128_12_0_n_n_0_1_11128_wf : GatherDims.WF S50000x1x128 S640000x1 S640000x1x128 [1, 2] [0] [] [0] [] 1 ![1, 1, 128]
  dot_S640000x1x256_S128x256_S640000x1x128_2_1_01_0_n_n_wf : DotDims.WF S640000x1x256 S128x256 S640000x1x128 [2] [1] [0, 1] [0] [] []
  scatter_S50000x1x128_S640000x1_S640000x1x128_12_0_0_1_wf : ScatterDims.WF S50000x1x128 S640000x1 S640000x1x128 [1, 2] [0] [0] 1
  scatter_S50000_S640000x1_S640000_n_0_0_1_wf : ScatterDims.WF S50000 S640000x1 S640000 [] [0] [0] 1
  dot_S50000x1x256_S128x256_S50000x1x128_2_1_01_0_n_n_wf : DotDims.WF S50000x1x256 S128x256 S50000x1x128 [2] [1] [0, 1] [0] [] []

variable [Facts₀]

def gather_S50000x1x128_S640000x1_S640000x1x128_12_0_n_n_0_1_11128 : GatherDims S50000x1x128 S640000x1 S640000x1x128 where
  offsetDims := [1, 2]
  collapsedSliceDims := [0]
  operandBatchingDims := []
  startIndicesBatchingDims := []
  startIndexMap := [0]
  indexVectorDim := 1
  sliceSizes := ![1, 1, 128]
  wf := gather_S50000x1x128_S640000x1_S640000x1x128_12_0_n_n_0_1_11128_wf
def dot_S640000x1x256_S128x256_S640000x1x128_2_1_01_0_n_n : DotDims S640000x1x256 S128x256 S640000x1x128 where
  lhsContracting := [2]
  rhsContracting := [1]
  lhsNonContracting := [0, 1]
  rhsNonContracting := [0]
  lhsBatch := []
  rhsBatch := []
  wf := dot_S640000x1x256_S128x256_S640000x1x128_2_1_01_0_n_n_wf
def scatter_S50000x1x128_S640000x1_S640000x1x128_12_0_0_1 : ScatterDims S50000x1x128 S640000x1 S640000x1x128 where
  updateWindowDims := [1, 2]
  insertedWindowDims := [0]
  scatterDimsToOperandDims := [0]
  indexVectorDim := 1
  wf := scatter_S50000x1x128_S640000x1_S640000x1x128_12_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x1x256_S128x256_S50000x1x128_2_1_01_0_n_n : DotDims S50000x1x256 S128x256 S50000x1x128 where
  lhsContracting := [2]
  rhsContracting := [1]
  lhsNonContracting := [0, 1]
  rhsNonContracting := [0]
  lhsBatch := []
  rhsBatch := []
  wf := dot_S50000x1x256_S128x256_S50000x1x128_2_1_01_0_n_n_wf

class Facts : Prop extends Facts₀ where

variable [Facts]
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.Spec.lean ====
/-
  One layer of message passing with mean aggregation, written index by index on the extended reals.

  Every edge `e` has a source row and a destination node. The layer first forms, for every node `n`, the mean over
  the edges arriving at `n` of an affine message, and then applies a second affine map to the node's own features
  joined with that mean, followed by `max · 0`. This file states the node-level part: given, for every node, the
  three aggregated tables

      g n k  = the sum over arriving edges of the source node's feature k,
      s n k  = the sum over arriving edges of the edge's feature k,
      cn n   = the number of arriving edges,

  the mean message is  (g·W₁ + s·W₂ + cn · b) / max cn 1  and the update is  max (x·A₁ + mean·A₂ + a) 0.
  The tables are indexed by a row count `R` that is left general: the same formula reads a block of rows and the
  whole array.
-/
import Idealize.ShloMosaic.Lib.ValueIdx
import Idealize.ShloMosaic.PureOps.Ideal

noncomputable section

open scoped BigOperators

namespace Cert.Layer

open Idealize.ShloMosaic Idealize.ShloMosaic.ValueIdx

/-- The float word of 1. -/
abbrev oneW : EReal := Ideal.ofBits .f32 0x3F800000#32
/-- The float word of 0. -/
abbrev zeroW : EReal := Ideal.ofBits .f32 0x00000000#32

/-- The mean message of row `p`, feature `k`: the aggregated source features times `w1`, plus the aggregated edge
    features times `w2`, plus the arrival count times the bias, all divided by the count raised to at least one. -/
def meanMsg {R : Nat} (g s : (⟨2, ![R, 128]⟩ : Shape).Idx → EReal) (cn : (⟨2, ![R, 1]⟩ : Shape).Idx → EReal)
    (w1 w2 : (⟨2, ![128, 128]⟩ : Shape).Idx → EReal) (bm : (⟨2, ![1, 128]⟩ : Shape).Idx → EReal)
    (p : Fin R) (k : Fin 128) : EReal :=
  Ideal.div
    (((∑ j : Fin 128, g (ix2 p j) * w1 (ix2 j k)) + (∑ j : Fin 128, s (ix2 p j) * w2 (ix2 j k)))
      + cn (ix2 p (0 : Fin 1)) * bm (ix2 (0 : Fin 1) k))
    (max (cn (ix2 p (0 : Fin 1))) oneW)

/-- The updated feature `q` of row `p`: the row's own features times `a1`, plus its mean message times `a2`, plus the
    bias, cut off below at zero. -/
def update {R : Nat} (x g s : (⟨2, ![R, 128]⟩ : Shape).Idx → EReal) (cn : (⟨2, ![R, 1]⟩ : Shape).Idx → EReal)
    (w1 w2 : (⟨2, ![128, 128]⟩ : Shape).Idx → EReal) (bm : (⟨2, ![1, 128]⟩ : Shape).Idx → EReal)
    (a1 a2 : (⟨2, ![128, 128]⟩ : Shape).Idx → EReal) (ba : (⟨2, ![1, 128]⟩ : Shape).Idx → EReal)
    (p : Fin R) (q : Fin 128) : EReal :=
  max (((∑ k : Fin 128, x (ix2 p k) * a1 (ix2 k q))
        + (∑ k : Fin 128, meanMsg g s cn w1 w2 bm p k * a2 (ix2 k q)))
      + ba (ix2 (0 : Fin 1) q)) zeroW

/-- The update of a row only sees that row of the three tables and of the features: two families of tables that agree
    on row `p` of one and row `P` of the other give the same update there. -/
theorem update_congr {R R' : Nat}
    (x g s : (⟨2, ![R, 128]⟩ : Shape).Idx → EReal) (cn : (⟨2, ![R, 1]⟩ : Shape).Idx → EReal)
    (X G S : (⟨2, ![R', 128]⟩ : Shape).Idx → EReal) (CN : (⟨2, ![R', 1]⟩ : Shape).Idx → EReal)
    (w1 w2 : (⟨2, ![128, 128]⟩ : Shape).Idx → EReal) (bm : (⟨2, ![1, 128]⟩ : Shape).Idx → EReal)
    (a1 a2 : (⟨2, ![128, 128]⟩ : Shape).Idx → EReal) (ba : (⟨2, ![1, 128]⟩ : Shape).Idx → EReal)
    (p : Fin R) (P : Fin R')
    (hx : ∀ j : Fin 128, x (ix2 p j) = X (ix2 P j)) (hg : ∀ j : Fin 128, g (ix2 p j) = G (ix2 P j))
    (hs : ∀ j : Fin 128, s (ix2 p j) = S (ix2 P j)) (hc : cn (ix2 p (0 : Fin 1)) = CN (ix2 P (0 : Fin 1)))
    (q : Fin 128) :
    update x g s cn w1 w2 bm a1 a2 ba p q = update X G S CN w1 w2 bm a1 a2 ba P q := by
  unfold update meanMsg
  simp only [hx, hg, hs, hc]

/-! ## The whole layer, from the eight arguments

Two spellings of the layer as a function of the node features `nf`, the edge features `ef`, the message weights
`wm` (128 × 256: columns 0–127 act on the source node's features, columns 128–255 on the edge's) and bias `bm`, the
update weights `wa` and bias `ba`, and the edges' source and destination indices. `kernelOut` aggregates the raw
features per node and transforms once; `refOut` transforms every edge's joined features and aggregates the messages. -/

/-- Column `k` of the left half of a 256-wide row. -/
def lo (k : Fin 128) : Fin 256 := ⟨k.val, Nat.lt_trans k.isLt (by decide)⟩
/-- Column `k` of the right half of a 256-wide row. -/
def hi (k : Fin 128) : Fin 256 := ⟨128 + k.val, by have := k.isLt; omega⟩

/-- An edge's source index with a negative value wrapped once by the table's length, as written before the lookup. -/
def wrapIdx (s : BitVec 32) : BitVec 32 :=
  Scalar.select (IntOp.cmpi .slt s 0#32) (IntOp.addi s 50000#32) s

/-- The row of the node table that edge `e` reads: its wrapped source index, read signed and clamped into the table. -/
def srcRow (src : IVec ⟨1, ![640000]⟩ 32) (e : Fin 640000) : Fin 50000 :=
  ⟨min (wrapIdx (src (ix1 e))).toInt.toNat (50000 - 1), by omega⟩

/-- Edge `e` arrives at node `n`: its destination index, read signed, is `n`. An index outside the table arrives
    nowhere. -/
abbrev arrives (dst : IVec ⟨1, ![640000]⟩ 32) (n : Fin 50000) (e : Fin 640000) : Prop :=
  (dst (ix1 e)).toInt = (n.val : Int)

section Whole
variable (nf : (⟨3, ![50000, 1, 128]⟩ : Shape).Idx → EReal) (ef : (⟨3, ![640000, 1, 128]⟩ : Shape).Idx → EReal)
  (wm : (⟨2, ![128, 256]⟩ : Shape).Idx → EReal) (bm : (⟨1, ![128]⟩ : Shape).Idx → EReal)
  (wa : (⟨2, ![128, 256]⟩ : Shape).Idx → EReal) (ba : (⟨1, ![128]⟩ : Shape).Idx → EReal)
  (src dst : IVec ⟨1, ![640000]⟩ 32)

/-- Feature `k` of the source nodes, summed over the edges arriving at `n` (accumulated into a zero array). -/
def aggSrc (n : Fin 50000) (k : Fin 128) : EReal :=
  zeroW + ∑ e : Fin 640000, if arrives dst n e then nf (ix3 (srcRow src e) (0 : Fin 1) k) else 0

/-- Feature `k` of the edges arriving at `n`, summed. -/
def aggEdge (n : Fin 50000) (k : Fin 128) : EReal :=
  zeroW + ∑ e : Fin 640000, if arrives dst n e then ef (ix3 e (0 : Fin 1) k) else 0

/-- The number of edges arriving at `n`, as a sum of ones. -/
def count (n : Fin 50000) : EReal :=
  zeroW + ∑ e : Fin 640000, if arrives dst n e then oneW else 0

/-- AGGREGATE, THEN TRANSFORM: the update (`update`) of the node features, the two aggregated tables and the counts,
    with the two halves of each weight matrix transposed into place and each bias as a row. -/
def kernelOut : (⟨3, ![50000, 1, 128]⟩ : Shape).Idx → EReal := fun i =>
  update (R := 50000)
    (fun j => nf (ix3 (j 0) (0 : Fin 1) (j 1)))
    (fun j => aggSrc nf src dst (j 0) (j 1))
    (fun j => aggEdge ef dst (j 0) (j 1))
    (fun j => count dst (j 0))
    (fun j => wm (ix2 (j 1) (lo (j 0))))
    (fun j => wm (ix2 (j 1) (hi (j 0))))
    (fun j => bm (ix1 (j 1)))
    (fun j => wa (ix2 (j 1) (lo (j 0))))
    (fun j => wa (ix2 (j 1) (hi (j 0))))
    (fun j => ba (ix1 (j 1)))
    (i 0) (i 2)

/-- The joined features of edge `e`: its source node's 128 features, then its own 128. -/
def joinEdge (e : Fin 640000) (j : Fin 256) : EReal :=
  if h : j.val < 128 then nf (ix3 (srcRow src e) (0 : Fin 1) ⟨j.val, h⟩)
  else ef (ix3 e (0 : Fin 1) ⟨j.val - 128, by have := j.isLt; omega⟩)

/-- The message of edge `e`, feature `o`: the joined features against row `o` of the message weights, plus the bias. -/
def message (e : Fin 640000) (o : Fin 128) : EReal :=
  (∑ j : Fin 256, joinEdge nf ef src e j * wm (ix2 o j)) + bm (ix1 o)

/-- The messages arriving at `n`, summed (accumulated into a zero array). -/
def sumMsg (n : Fin 50000) (o : Fin 128) : EReal :=
  zeroW + ∑ e : Fin 640000, if arrives dst n e then message nf ef wm bm src e o else 0

/-- The mean message at `n`: the sum divided by the count raised to at least one. -/
def meanRef (n : Fin 50000) (k : Fin 128) : EReal :=
  Ideal.div (sumMsg nf ef wm bm src dst n k) (max (count dst n) oneW)

/-- The joined features of node `n`: its own 128 features, then its mean message. -/
def joinNode (n : Fin 50000) (j : Fin 256) : EReal :=
  if h : j.val < 128 then nf (ix3 n (0 : Fin 1) ⟨j.val, h⟩)
  else meanRef nf ef wm bm src dst n ⟨j.val - 128, by have := j.isLt; omega⟩

/-- TRANSFORM, THEN AGGREGATE: the joined node features against the update weights, plus the bias, cut off below at
    zero. -/
def refOut : (⟨3, ![50000, 1, 128]⟩ : Shape).Idx → EReal := fun i =>
  max ((∑ j : Fin 256, joinNode nf ef wm bm src dst (i 0) j * wa (ix2 (i 2) j)) + ba (ix1 (i 2))) zeroW

end Whole

end Cert.Layer

end
-- ==== Proof.Body.lean ====
/-
  What one grid point's body leaves in the output block, read at row `p` and column `q`.

  The body loads the point's ten input blocks whole, and stores once, whole: the block it stores is, entry by
  entry, the layer's update of row `p` (Spec: `Cert.Layer.update`) computed from the blocks of the node features,
  of the two aggregated tables and of the arrival counts, and from the four weight matrices and the two biases.
  The four matrix products accumulate into zero, so each is the plain sum over the contracted coordinate; the
  count column and the bias rows are broadcast along the other axis.
-/
import proofs.«148901_j5403068859071_2_alg».proof.Proof.Gen.KernelIdeal.Frame
import proofs.«148901_j5403068859071_2_alg».proof.Proof.LibRowOps
import proofs.«148901_j5403068859071_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.Pipeline

/-- The zero offsets of a rank-two rectangle. -/
theorem hz : (![0, 0] : Fin 2 → Nat) = fun _ => 0 := funext fun a => by fin_cases a <;> rfl

/-- The body's one store covers the block, so the block ends at the stored value: the two payloads composed, of
    the loaded blocks. -/
theorem out_eq {F : FTy → Type} [FloatOps F] (x0 x1 x2 : Vec F S10000x128 .f32) (x3 : Vec F S10000x1 .f32)
    (x4 x5 : Vec F S128x128 .f32) (x6 : Vec F S1x128 .f32) (x7 x8 : Vec F S128x128 .f32) (x9 : Vec F S1x128 .f32) :
    out0_10 x0 x1 x2 x3 x4 x5 x6 x7 x8 x9 = k0_pay1 (k0_pay2 x1 x4 x2 x5 x3 x6 x3 x0 x7 x8) x9 := by
  unfold out0_10
  rw [View.canon_unit_zero hz]
  simp only [View.ld_unit_zero (S := S10000x128) hz, View.ld_unit_zero (S := S128x128) hz,
    View.ld_unit_zero (S := S10000x1) hz, View.ld_unit_zero (S := S1x128) hz]

/-- The kernel's product record is the plain 10000×128 by 128×128 product. -/
theorem dot_plain : dot_S10000x128_S128x128_S10000x128_1_0_0_1_n_n = DotDims.plain 10000 128 128 :=
  Cert.RowLib.dotDims_eq_plain _ rfl rfl rfl rfl rfl rfl

/-- THE STORED BLOCK AT (p, q), at the ideal values: the layer's update of row `p`, column `q`, of the loaded
    blocks. The four products into zero are plain sums over the contracted coordinate; the count column is read at
    column 0 of its row and each bias row at row 0 of its column. -/
theorem pay_apply (g : Vec Ideal S10000x128 .f32) (w1 : Vec Ideal S128x128 .f32) (s : Vec Ideal S10000x128 .f32)
    (w2 : Vec Ideal S128x128 .f32) (cn : Vec Ideal S10000x1 .f32) (bm : Vec Ideal S1x128 .f32)
    (x : Vec Ideal S10000x128 .f32) (a1 a2 : Vec Ideal S128x128 .f32) (ba : Vec Ideal S1x128 .f32)
    (p : Fin 10000) (q : Fin 128) :
    k0_pay1 (k0_pay2 g w1 s w2 cn bm cn x a1 a2) ba (ix2 p q)
      = Cert.Layer.update x g s cn w1 w2 bm a1 a2 ba p q := by
  unfold k0_pay1 k0_pay2 Cert.Layer.update Cert.Layer.meanMsg
  simp only [shapeCast_self, dot_plain, maximumf_apply, addf_apply, mulf_apply, divf_apply, broadcast_apply,
    Cert.RowLib.matmul_plain_zero_ix2, Cert.RowLib.broadcastTo_a1_ab_apply, broadcastTo_1b_ab_apply]
  rfl

end Cert.KernelIdeal.Body

end
-- ==== Proof.Blocks.lean ====
/-
  From the grid's blocks to the whole array.

  The grid has five points; point `t` reads rows `10000·t … 10000·t + 9999` of the node features, of the two aggregated
  tables and of the counts, reads the four weight matrices and the two bias rows whole, and writes the same rows of
  the output. Since the update of a row only depends on that row of the tables, the block point `t` writes is the
  restriction to its rows of ONE function of the arrays as the region finds them; the five blocks cover the array, so
  the array ends holding that function.
-/
import proofs.«148901_j5403068859071_2_alg».proof.Proof.Body

set_option maxRecDepth 16384

noncomputable section

open scoped BigOperators

namespace Cert.KernelIdeal.Blocks

open Cert.KernelIdeal Cert.KernelIdeal.Gen Idealize.ShloMosaic Idealize.ShloMosaic.ValueIdx Idealize.ShloMosaic.Pipeline
open Idealize.ShloMosaic.TcCoe Idealize.SL.Sem

/-- The printed index maps over the five points: the four row-blocked inputs and the output move with the point on
    the row axis; the weights and biases stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-- Row `p` of point `t`'s block is row `10000·t + p` of the array. -/
def rowOf (t : Fin cfg0.N) (p : Fin 10000) : Fin 50000 :=
  ⟨t.val * 10000 + p.val, by have := t.isLt; have : cfg0.N = 5 := rfl; have := p.isLt; omega⟩

/-- Window 0's block at point `t`, read at (p, j): row `10000·t + p` of its array. -/
theorem read0 (a : S50000x128.Idx → EReal) (t : Fin cfg0.N) (p : Fin 10000) (j : Fin 128) :
    ((cfg0.win 0).blk t).view.read (Elt Ideal) a (ix2 p j) = a (ix2 (rowOf t p) j) := by
  obtain ⟨⟨e0, e1⟩, -⟩ := idx_facts t
  show a (((cfg0.win 0).blk t).view.emb (ix2 p j)) = _
  congr 1
  funext b; apply Fin.ext
  match b with
  | ⟨0, _⟩ => show win0_0.index t (0 : Fin 2) * 10000 + 1 * p.val = t.val * 10000 + p.val; omega
  | ⟨1, _⟩ => show win0_0.index t (1 : Fin 2) * 128 + 1 * j.val = j.val; omega

/-- Window 1's block at point `t`, read at (p, j): row `10000·t + p` of its array. -/
theorem read1 (a : S50000x128.Idx → EReal) (t : Fin cfg0.N) (p : Fin 10000) (j : Fin 128) :
    ((cfg0.win 1).blk t).view.read (Elt Ideal) a (ix2 p j) = a (ix2 (rowOf t p) j) := by
  obtain ⟨-, ⟨e0, e1⟩, -⟩ := idx_facts t
  show a (((cfg0.win 1).blk t).view.emb (ix2 p j)) = _
  congr 1
  funext b; apply Fin.ext
  match b with
  | ⟨0, _⟩ => show win0_1.index t (0 : Fin 2) * 10000 + 1 * p.val = t.val * 10000 + p.val; omega
  | ⟨1, _⟩ => show win0_1.index t (1 : Fin 2) * 128 + 1 * j.val = j.val; omega

/-- Window 2's block at point `t`, read at (p, j): row `10000·t + p` of its array. -/
theorem read2 (a : S50000x128.Idx → EReal) (t : Fin cfg0.N) (p : Fin 10000) (j : Fin 128) :
    ((cfg0.win 2).blk t).view.read (Elt Ideal) a (ix2 p j) = a (ix2 (rowOf t p) j) := by
  obtain ⟨-, -, ⟨e0, e1⟩, -⟩ := idx_facts t
  show a (((cfg0.win 2).blk t).view.emb (ix2 p j)) = _
  congr 1
  funext b; apply Fin.ext
  match b with
  | ⟨0, _⟩ => show win0_2.index t (0 : Fin 2) * 10000 + 1 * p.val = t.val * 10000 + p.val; omega
  | ⟨1, _⟩ => show win0_2.index t (1 : Fin 2) * 128 + 1 * j.val = j.val; omega

/-- The counts' block at point `t`, read at (p, 0): row `10000·t + p` of the count column. -/
theorem read3 (a : S50000x1.Idx → EReal) (t : Fin cfg0.N) (p : Fin 10000) :
    ((cfg0.win 3).blk t).view.read (Elt Ideal) a (ix2 p (0 : Fin 1)) = a (ix2 (rowOf t p) (0 : Fin 1)) := by
  obtain ⟨-, -, -, ⟨e0, e1⟩, -⟩ := idx_facts t
  show a (((cfg0.win 3).blk t).view.emb (ix2 p (0 : Fin 1))) = _
  congr 1
  funext b; apply Fin.ext
  match b with
  | ⟨0, _⟩ => show win0_3.index t (0 : Fin 2) * 10000 + 1 * p.val = t.val * 10000 + p.val; omega
  | ⟨1, _⟩ => show win0_3.index t (1 : Fin 2) * 1 + 1 * 0 = 0; omega

/-- Window 4 is one block, the whole matrix, at every point. -/
theorem read4 (a : S128x128.Idx → EReal) (t : Fin cfg0.N) (j k : Fin 128) :
    ((cfg0.win 4).blk t).view.read (Elt Ideal) a (ix2 j k) = a (ix2 j k) := by
  obtain ⟨-, -, -, -, ⟨e0, e1⟩, -⟩ := idx_facts t
  show a (((cfg0.win 4).blk t).view.emb (ix2 j k)) = _
  congr 1
  funext b; apply Fin.ext
  match b with
  | ⟨0, _⟩ => show win0_4.index t (0 : Fin 2) * 128 + 1 * j.val = j.val; omega
  | ⟨1, _⟩ => show win0_4.index t (1 : Fin 2) * 128 + 1 * k.val = k.val; omega

/-- Window 5 is one block, the whole matrix, at every point. -/
theorem read5 (a : S128x128.Idx → EReal) (t : Fin cfg0.N) (j k : Fin 128) :
    ((cfg0.win 5).blk t).view.read (Elt Ideal) a (ix2 j k) = a (ix2 j k) := by
  obtain ⟨-, -, -, -, -, ⟨e0, e1⟩, -⟩ := idx_facts t
  show a (((cfg0.win 5).blk t).view.emb (ix2 j k)) = _
  congr 1
  funext b; apply Fin.ext
  match b with
  | ⟨0, _⟩ => show win0_5.index t (0 : Fin 2) * 128 + 1 * j.val = j.val; omega
  | ⟨1, _⟩ => show win0_5.index t (1 : Fin 2) * 128 + 1 * k.val = k.val; omega

/-- Window 6 is one block, the whole bias row, at every point. -/
theorem read6 (a : S1x128.Idx → EReal) (t : Fin cfg0.N) (k : Fin 128) :
    ((cfg0.win 6).blk t).view.read (Elt Ideal) a (ix2 (0 : Fin 1) k) = a (ix2 (0 : Fin 1) k) := by
  obtain ⟨-, -, -, -, -, -, ⟨e0, e1⟩, -⟩ := idx_facts t
  show a (((cfg0.win 6).blk t).view.emb (ix2 (0 : Fin 1) k)) = _
  congr 1
  funext b; apply Fin.ext
  match b with
  | ⟨0, _⟩ => show win0_6.index t (0 : Fin 2) * 1 + 1 * 0 = 0; omega
  | ⟨1, _⟩ => show win0_6.index t (1 : Fin 2) * 128 + 1 * k.val = k.val; omega

/-- Window 7 is one block, the whole matrix, at every point. -/
theorem read7 (a : S128x128.Idx → EReal) (t : Fin cfg0.N) (j k : Fin 128) :
    ((cfg0.win 7).blk t).view.read (Elt Ideal) a (ix2 j k) = a (ix2 j k) := by
  obtain ⟨-, -, -, -, -, -, -, ⟨e0, e1⟩, -⟩ := idx_facts t
  show a (((cfg0.win 7).blk t).view.emb (ix2 j k)) = _
  congr 1
  funext b; apply Fin.ext
  match b with
  | ⟨0, _⟩ => show win0_7.index t (0 : Fin 2) * 128 + 1 * j.val = j.val; omega
  | ⟨1, _⟩ => show win0_7.index t (1 : Fin 2) * 128 + 1 * k.val = k.val; omega

/-- Window 8 is one block, the whole matrix, at every point. -/
theorem read8 (a : S128x128.Idx → EReal) (t : Fin cfg0.N) (j k : Fin 128) :
    ((cfg0.win 8).blk t).view.read (Elt Ideal) a (ix2 j k) = a (ix2 j k) := by
  obtain ⟨-, -, -, -, -, -, -, -, ⟨e0, e1⟩, -⟩ := idx_facts t
  show a (((cfg0.win 8).blk t).view.emb (ix2 j k)) = _
  congr 1
  funext b; apply Fin.ext
  match b with
  | ⟨0, _⟩ => show win0_8.index t (0 : Fin 2) * 128 + 1 * j.val = j.val; omega
  | ⟨1, _⟩ => show win0_8.index t (1 : Fin 2) * 128 + 1 * k.val = k.val; omega

/-- Window 9 is one block, the whole bias row, at every point. -/
theorem read9 (a : S1x128.Idx → EReal) (t : Fin cfg0.N) (k : Fin 128) :
    ((cfg0.win 9).blk t).view.read (Elt Ideal) a (ix2 (0 : Fin 1) k) = a (ix2 (0 : Fin 1) k) := by
  obtain ⟨-, -, -, -, -, -, -, -, -, ⟨e0, e1⟩, -⟩ := idx_facts t
  show a (((cfg0.win 9).blk t).view.emb (ix2 (0 : Fin 1) k)) = _
  congr 1
  funext b; apply Fin.ext
  match b with
  | ⟨0, _⟩ => show win0_9.index t (0 : Fin 2) * 1 + 1 * 0 = 0; omega
  | ⟨1, _⟩ => show win0_9.index t (1 : Fin 2) * 128 + 1 * k.val = k.val; omega

/-- THE ARRAY-LEVEL FUNCTION of ten arrays: the layer's update of row `i₀`, column `i₁`. -/
def arrayFnOf (a0 a1 a2 : S50000x128.Idx → EReal) (a3 : S50000x1.Idx → EReal) (a4 a5 : S128x128.Idx → EReal)
    (a6 : S1x128.Idx → EReal) (a7 a8 : S128x128.Idx → EReal) (a9 : S1x128.Idx → EReal) : S50000x128.Idx → EReal :=
  fun i => Cert.Layer.update (R := 50000) a0 a1 a2 a3 a4 a5 a6 a7 a8 a9 (i 0) (i 1)

/-- The update at a row only reads that row of the row-indexed tables, and the weights and biases entry by entry:
    tables that agree there give the same update. -/
theorem update_congr_all {R R' : Nat}
    (x g s : (⟨2, ![R, 128]⟩ : Shape).Idx → EReal) (cn : (⟨2, ![R, 1]⟩ : Shape).Idx → EReal)
    (w1 w2 : (⟨2, ![128, 128]⟩ : Shape).Idx → EReal) (bm : (⟨2, ![1, 128]⟩ : Shape).Idx → EReal)
    (a1 a2 : (⟨2, ![128, 128]⟩ : Shape).Idx → EReal) (ba : (⟨2, ![1, 128]⟩ : Shape).Idx → EReal)
    (X G S : (⟨2, ![R', 128]⟩ : Shape).Idx → EReal) (CN : (⟨2, ![R', 1]⟩ : Shape).Idx → EReal)
    (W1 W2 : (⟨2, ![128, 128]⟩ : Shape).Idx → EReal) (BM : (⟨2, ![1, 128]⟩ : Shape).Idx → EReal)
    (A1 A2 : (⟨2, ![128, 128]⟩ : Shape).Idx → EReal) (BA : (⟨2, ![1, 128]⟩ : Shape).Idx → EReal)
    (p : Fin R) (P : Fin R')
    (hx : ∀ j : Fin 128, x (ix2 p j) = X (ix2 P j)) (hg : ∀ j : Fin 128, g (ix2 p j) = G (ix2 P j))
    (hs : ∀ j : Fin 128, s (ix2 p j) = S (ix2 P j)) (hc : cn (ix2 p (0 : Fin 1)) = CN (ix2 P (0 : Fin 1)))
    (hw1 : ∀ j k : Fin 128, w1 (ix2 j k) = W1 (ix2 j k)) (hw2 : ∀ j k : Fin 128, w2 (ix2 j k) = W2 (ix2 j k))
    (hbm : ∀ k : Fin 128, bm (ix2 (0 : Fin 1) k) = BM (ix2 (0 : Fin 1) k))
    (ha1 : ∀ j k : Fin 128, a1 (ix2 j k) = A1 (ix2 j k)) (ha2 : ∀ j k : Fin 128, a2 (ix2 j k) = A2 (ix2 j k))
    (hba : ∀ k : Fin 128, ba (ix2 (0 : Fin 1) k) = BA (ix2 (0 : Fin 1) k)) (q : Fin 128) :
    Cert.Layer.update x g s cn w1 w2 bm a1 a2 ba p q = Cert.Layer.update X G S CN W1 W2 BM A1 A2 BA P q := by
  unfold Cert.Layer.update Cert.Layer.meanMsg
  simp only [hx, hg, hs, hc, hw1, hw2, hbm, ha1, ha2, hba]

/-- THE BODY ON THE BLOCKS OF ANY TEN ARRAYS: what it stores at point `t` is block `t` of the array-level function
    of those arrays. -/
theorem body_block (a0 a1 a2 : S50000x128.Idx → EReal) (a3 : S50000x1.Idx → EReal) (a4 a5 : S128x128.Idx → EReal)
    (a6 : S1x128.Idx → EReal) (a7 a8 : S128x128.Idx → EReal) (a9 : S1x128.Idx → EReal) (t : Fin cfg0.N)
    (y : S10000x128.Idx) :
    out0_10 (((cfg0.win 0).blk t).view.read (Elt Ideal) a0) (((cfg0.win 1).blk t).view.read (Elt Ideal) a1)
      (((cfg0.win 2).blk t).view.read (Elt Ideal) a2) (((cfg0.win 3).blk t).view.read (Elt Ideal) a3)
      (((cfg0.win 4).blk t).view.read (Elt Ideal) a4) (((cfg0.win 5).blk t).view.read (Elt Ideal) a5)
      (((cfg0.win 6).blk t).view.read (Elt Ideal) a6) (((cfg0.win 7).blk t).view.read (Elt Ideal) a7)
      (((cfg0.win 8).blk t).view.read (Elt Ideal) a8) (((cfg0.win 9).blk t).view.read (Elt Ideal) a9) y
    = ((cfg0.win 10).blk t).view.read (Elt Ideal) (arrayFnOf a0 a1 a2 a3 a4 a5 a6 a7 a8 a9) y := by
  obtain ⟨p, q, rfl⟩ : ∃ (p : Fin 10000) (q : Fin 128), y = ix2 p q := ⟨y 0, y 1, eq_ix2 y⟩
  obtain ⟨-, -, -, -, -, -, -, -, -, -, ⟨e0, e1⟩⟩ := idx_facts t
  have hemb : ((cfg0.win 10).blk t).view.emb (ix2 p q) = (ix2 (rowOf t p) q : S50000x128.Idx) := by
    funext b; apply Fin.ext
    match b with
    | ⟨0, _⟩ => show win0_10.index t (0 : Fin 2) * 10000 + 1 * p.val = t.val * 10000 + p.val; omega
    | ⟨1, _⟩ => show win0_10.index t (1 : Fin 2) * 128 + 1 * q.val = q.val; omega
  rw [Body.out_eq]
  show _ = arrayFnOf a0 a1 a2 a3 a4 a5 a6 a7 a8 a9 (((cfg0.win 10).blk t).view.emb (ix2 p q))
  rw [hemb]
  refine (Body.pay_apply _ _ _ _ _ _ _ _ _ _ p q).trans ?_
  exact update_congr_all _ _ _ _ _ _ _ _ _ _ a0 a1 a2 a3 a4 a5 a6 a7 a8 a9 p (rowOf t p)
    (read0 a0 t p) (read1 a1 t p) (read2 a2 t p) (read3 a3 t p) (read4 a4 t) (read5 a5 t) (read6 a6 t)
    (read7 a7 t) (read8 a8 t) (read9 a9 t) q

end Cert.KernelIdeal.Blocks

end
-- ==== Proof.KValue.lean ====
/-
  The kernel program's run, read as a value.

  The launch's five points write five blocks of 10000 rows which together cover the 50000-row output; by the block
  lemma each is a block of ONE array-level function of the ten arrays the launch finds, so that function is what the
  output array holds after the launch. One host reshape then inserts the unit middle axis.
-/
import proofs.«148901_j5403068859071_2_alg».proof.Proof.Blocks
import Idealize.ShloMosaic.Lib.StableHlo.Run

set_option maxRecDepth 16384

noncomputable section

namespace Cert.KernelIdeal.KValue

open Cert.KernelIdeal Cert.KernelIdeal.Gen Cert.KernelIdeal.Blocks Idealize.ShloMosaic Idealize.ShloMosaic.ValueIdx
open Idealize.ShloMosaic.Pipeline Idealize.ShloMosaic.TcCoe Idealize.SL.Sem Idealize.ShloMosaic.StableHlo

variable (m : (ℓ : Loc nD τ sig) → Buf (Elt Ideal) ℓ) (ρ : Dev nD → PrngReg)

/-- The array-level function of the ten arrays as the launch finds them on core `c`. -/
def arrayFn (c : Dev nD) : S50000x128.Idx → EReal :=
  arrayFnOf (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9))

/-- WHAT POINT `t` WRITES BACK is block `t` of the array-level function. -/
theorem flushed_eq (c : Dev nD) (t : Fin cfg0.N) :
    (dats m 0 c).flushed 10 t = ((cfg0.win 10).blk t).view.read (Elt Ideal) (arrayFn m c) := by
  show (cfg0.win 10).cut (grid0.coords t) ((dats m 0 c).after 10 t) = _
  rw [after0_10]
  funext y
  show out0_10
      (((cfg0.win 0).blk t).view.read (Elt Ideal) (V m c (Pipeline.arrRef spec0 0)))
      (((cfg0.win 1).blk t).view.read (Elt Ideal) (V m c (Pipeline.arrRef spec0 1)))
      (((cfg0.win 2).blk t).view.read (Elt Ideal) (V m c (Pipeline.arrRef spec0 2)))
      (((cfg0.win 3).blk t).view.read (Elt Ideal) (V m c (Pipeline.arrRef spec0 3)))
      (((cfg0.win 4).blk t).view.read (Elt Ideal) (V m c (Pipeline.arrRef spec0 4)))
      (((cfg0.win 5).blk t).view.read (Elt Ideal) (V m c (Pipeline.arrRef spec0 5)))
      (((cfg0.win 6).blk t).view.read (Elt Ideal) (V m c (Pipeline.arrRef spec0 6)))
      (((cfg0.win 7).blk t).view.read (Elt Ideal) (V m c (Pipeline.arrRef spec0 7)))
      (((cfg0.win 8).blk t).view.read (Elt Ideal) (V m c (Pipeline.arrRef spec0 8)))
      (((cfg0.win 9).blk t).view.read (Elt Ideal) (V m c (Pipeline.arrRef spec0 9))) y = _
  exact body_block (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) t y

/-- An index of the output array is in point `t`'s block iff each coordinate is in the block's range on its axis. -/
theorem mem_blk (t : Fin cfg0.N) (i : S50000x128.Idx) :
    i ∈ ((cfg0.win 10).blk t).view.set ↔ ∀ a : Fin 2, win0_10.index t a * S10000x128.size a ≤ (i a).val
      ∧ (i a).val < win0_10.index t a * S10000x128.size a + S10000x128.size a := by
  show i ∈ ((View.whole main_v30).slice (win0_10.rect t)).set ↔ _
  rw [View.set_slice_whole, Rect.mem_set_unit]
  exact Iff.rfl

/-- THE COVER: row `r` of the output is in the block of point `r / 10000`. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 5 := rfl
  refine ⟨⟨(i 0).val / 10000, by omega⟩, flush0_10 _, ?_⟩
  rw [mem_blk]
  obtain ⟨-, -, -, -, -, -, -, -, -, -, ⟨e0, e1⟩⟩ := idx_facts (⟨(i 0).val / 10000, by omega⟩ : Fin cfg0.N)
  intro a
  match a with
  | ⟨0, _⟩ =>
    show win0_10.index _ (0 : Fin 2) * 10000 ≤ (i 0).val ∧ (i 0).val < win0_10.index _ (0 : Fin 2) * 10000 + 10000
    rw [e0]; show (i 0).val / 10000 * 10000 ≤ (i 0).val ∧ (i 0).val < (i 0).val / 10000 * 10000 + 10000; omega
  | ⟨1, _⟩ =>
    show win0_10.index _ (1 : Fin 2) * 128 ≤ (i 1).val ∧ (i 1).val < win0_10.index _ (1 : Fin 2) * 128 + 128
    rw [e1]; omega

/-- THE OUTPUT ARRAY AFTER THE LAUNCH is the array-level function of the arrays the launch found. -/
theorem final (c : Dev nD) : (dats m 0 c).arrAt 10 cfg0.N = arrayFn m c :=
  (dats m 0 c).arrAt_eq_of_cover 10 (arrayFn m c) (fun t _ => flushed_eq m c t) cover

/-- THE RESULT of the program: the one host line after the launch reshapes the output array. -/
theorem tail_eq (c : Dev nD) :
    Pipeline.afterTail₀ cfgs (dats m) 0 (V0 m) [hostOps1] c main_v31
      = shapeCast S50000x1x128 (arrayFn m c) shapeCasts_S50000x128_S50000x1x128 := by
  unfold Pipeline.afterTail₀
  show StableHlo.after hostOps1 _ (Proc.devRef .tc main_v31) = _
  after_results
  have e : (withArrays (cfgs 0).spec c (V0 m c) (fun w => (dats m 0 c).arrAt w (cfgs 0).N)
      (Proc.tc.devRef main_v30) : S50000x128.Idx → EReal) = arrayFn m c :=
    (Pipeline.withArrays_arr spec0 launch0.win.arr_inj c _ _ 10).trans (final m c)
  exact congrArg (fun f => shapeCast S50000x1x128 f shapeCasts_S50000x128_S50000x1x128) e

end Cert.KernelIdeal.KValue

end
-- ==== Proof.LibScatterRows.lean ====
/-
  SCATTERS OF ROWS, READ INDEX BY INDEX.

  A scatter takes an operand array, an array of scatter indices and an array of updates; every update element
  has a LANDING INDEX in the operand: on each operand axis, a start read off the scatter indices as a SIGNED
  integer and NOT clamped, plus the element's coordinate inside its window. An update whose landing index
  leaves the operand on some axis is dropped. This file computes the landing index for three families of
  dimension numbers and reads the scatter's result at one index.

  1. ROWS INTO A MATRIX. Operand `x : [N, K]`, scatter indices `idx : [E, 1]`, updates `upd : [E, K]`; the update's
     axis 1 is the window axis, the operand's axis 0 is the scattered (and inserted) axis, the index vector is
     the indices' axis 1. Update element `(e, k)` lands at `(idx[e, 0], k)`, and is dropped when `idx[e, 0]` is
     outside `[0, N)` (`resultIdx?_row`). So the accumulating scatter over the extended reals is, at `(r, k)`,

         x[r, k] + ∑ e, (if idx[e, 0] = r then upd[e, k] else 0)

     (`hostScatterAdd_row_apply`): column `k` of the result only sees column `k` of the operand and of the updates.
     In particular column 0 of the `K`-wide scatter is the 1-wide scatter of the two columns 0
     (`hostScatterAdd_row_col0`).

  2. A SCATTER THAT WRITES ("set": the body returns the update) whose landing indices are all inside the operand
     and pairwise distinct reads, at the landing index of update element `j`, that element
     (`scatter_set_apply`): among the update elements taken in row-major order only `j` itself touches that index.

  3. PADDING BY ONE SCATTER INDEX. A column `upd : [M, 1]` written into `x : [M, C]` at the column the single
     scatter index names (`padColDims`: both update axes are window axes, the operand's axis 1 is scattered):
     element `(k, 0)` lands at `(k, c)`, so the result at `(k, c)` is `upd[k, 0]` (`padCol_set_apply`; at the
     zero index, `padCol_set_zero`). And a single entry `upd : [1]` written into `x : [M]` at the position the
     single scatter index names (`padVecDims`): the result there is `upd[0]` (`padVec_set_apply`,
     `padVec_set_zero`).

  The conditions on each family's dimension numbers (`ScatterDims.WF`) are an argument `wf`: they are decided on
  the literal shapes of a program.
-/
import Idealize.ShloMosaic.Lib.ValueIdx
import Idealize.ShloMosaic.PureOps.Ideal
import Idealize.ShloMosaic.PureOps.ShapeOps

noncomputable section

open scoped BigOperators

namespace Cert.ScatterRows

open Idealize.ShloMosaic Idealize.ShloMosaic.ValueIdx

/-! ## 1. Rows into a matrix -/

/-- The dimension numbers of a scatter of rows: operand `[N, K]`, scatter indices `[E, 1]`, updates `[E, K]`;
    update window axis 1, inserted operand axis 0, the scatter index component goes to operand axis 0, the index
    vector is axis 1 of the indices. -/
abbrev rowScatterDims (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Rows
variable {N K E w : Nat} (wf : ScatterDims.WF ⟨2, ![N, K]⟩ ⟨2, ![E, 1]⟩ ⟨2, ![E, K]⟩ [1] [0] [0] 1)

/-- On the row axis the window of update element `j` starts at `idx[j₀, 0]`, read signed. -/
theorem start_row0 (j : (⟨2, ![E, K]⟩ : Shape).Idx) (idx : IVec ⟨2, ![E, 1]⟩ w) :
    (rowScatterDims N K E wf).start j idx 0 = (idx (ix2 (j 0) (0 : Fin 1))).toInt := by
  unfold ScatterDims.start
  rw [dif_pos (show (0 : Fin 2) ∈ (rowScatterDims N K E wf).scatterDimsToOperandDims from
    List.mem_singleton.mpr rfl)]
  have hsi : (rowScatterDims N K E wf).siIdx j
      ⟨List.idxOf (0 : Fin 2) (rowScatterDims N K E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- On the column axis, which no scatter index component names, the window starts at `0`. -/
theorem start_row1 (j : (⟨2, ![E, K]⟩ : Shape).Idx) (idx : IVec ⟨2, ![E, 1]⟩ w) :
    (rowScatterDims N K E wf).start j idx 1 = 0 := by
  unfold ScatterDims.start
  rw [dif_neg (show ¬ (1 : Fin 2) ∈ ([0] : List (Fin 2)) by decide)]

/-- The row axis is inserted: the window coordinate on it is `0`. -/
theorem window_row0 (j : (⟨2, ![E, K]⟩ : Shape).Idx) : (rowScatterDims N K E wf).window j 0 = 0 := rfl

/-- On the column axis the window coordinate of update element `j` is its column `j₁`. -/
theorem window_row1 (j : (⟨2, ![E, K]⟩ : Shape).Idx) : (rowScatterDims N K E wf).window j 1 = (j 1).val := rfl

/-- THE LANDING INDEX OF A ROW SCATTER: update element `j = (e, k)` lands on operand index `i` exactly when
    `idx[e, 0]`, read signed and not clamped, is `i`'s row and `k` is `i`'s column. (When `idx[e, 0]` is outside
    `[0, N)` it lands nowhere: no `i` has that row.) -/
theorem resultIdx?_row (j : (⟨2, ![E, K]⟩ : Shape).Idx) (idx : IVec ⟨2, ![E, 1]⟩ w)
    (i : (⟨2, ![N, K]⟩ : Shape).Idx) :
    (rowScatterDims N K E wf).resultIdx? j idx = some i ↔
      ((idx (ix2 (j 0) (0 : Fin 1))).toInt = ((i 0).val : Int) ∧ (j 1).val = (i 1).val) := by
  have hs0 := start_row0 wf j idx
  have hs1 := start_row1 wf j idx
  have hw0 := window_row0 wf j
  have hw1 := window_row1 wf j
  have hi0 : (i 0).val < N := idx2_lt0 i
  have hi1 : (i 1).val < K := idx2_lt1 i
  have hj1 : (j 1).val < K := idx2_lt1 j
  have hN : (⟨2, ![N, K]⟩ : Shape).size 0 = N := rfl
  have hK : (⟨2, ![N, K]⟩ : Shape).size 1 = K := rfl
  unfold ScatterDims.resultIdx?
  split
  · -- the landing index is inside the operand: compare it with `i` coordinate by coordinate
    rename_i h
    rw [Option.some.injEq]
    have h0 := h 0
    rw [hs0, hw0] at h0
    constructor
    · intro hf
      have e0 := congrArg (fun f => (f 0).val) hf
      have e1 := congrArg (fun f => (f 1).val) hf
      simp only [hs0, hs1, hw0, hw1] at e0 e1
      constructor <;> omega
    · rintro ⟨e0, e1⟩
      funext a
      refine Fin.ext ?_
      match a with
      | ⟨0, _⟩ =>
        show ((rowScatterDims N K E wf).start j idx 0 + ((rowScatterDims N K E wf).window j 0 : Nat)).toNat
          = (i 0).val
        rw [hs0, hw0]; omega
      | ⟨1, _⟩ =>
        show ((rowScatterDims N K E wf).start j idx 1 + ((rowScatterDims N K E wf).window j 1 : Nat)).toNat
          = (i 1).val
        rw [hs1, hw1]; omega
  · -- it is outside: then `idx[e, 0]` is no row of the operand
    rename_i h
    constructor
    · intro hf; cases hf
    · rintro ⟨e0, e1⟩
      exfalso; apply h
      refine Fin.forall_fin_two.mpr ⟨?_, ?_⟩
      · rw [hs0, hw0, hN]; omega
      · rw [hs1, hw1, hK]; omega

/-- THE ACCUMULATING ROW SCATTER AT `(r, k)`, over the extended reals: the operand's element plus the sum, over
    the update rows `e` whose scatter index `idx[e, 0]` (signed, not clamped) is `r`, of `upd[e, k]`. -/
theorem hostScatterAdd_row_apply (x : (⟨2, ![N, K]⟩ : Shape).Idx → EReal) (idx : IVec ⟨2, ![E, 1]⟩ w)
    (upd : (⟨2, ![E, K]⟩ : Shape).Idx → EReal) (r : Fin N) (k : Fin K) :
    Ideal.hostScatterAdd (rowScatterDims N K E wf) x idx upd (ix2 r k) =
      x (ix2 r k) +
        ∑ e : Fin E, if (idx (ix2 e (0 : Fin 1))).toInt = (r.val : Int) then upd (ix2 e k) else 0 := by
  show x (ix2 r k) + ∑ j ∈ Finset.univ.filter
      (fun j => (rowScatterDims N K E wf).resultIdx? j idx = some (ix2 r k)), upd j = _
  congr 1
  -- the sum over the update elements that land on `(r, k)`, as a double sum over rows and columns
  rw [Finset.sum_filter, sum_idx2]
  refine Finset.sum_congr rfl fun e _ => ?_
  have key : ∀ b : Fin K, ((rowScatterDims N K E wf).resultIdx? (ix2 e b) idx = some (ix2 r k)) ↔
      ((idx (ix2 e (0 : Fin 1))).toInt = (r.val : Int) ∧ b = k) := by
    intro b
    rw [resultIdx?_row]
    exact ⟨fun h => ⟨h.1, Fin.ext h.2⟩, fun h => ⟨h.1, congrArg Fin.val h.2⟩⟩
  simp only [key]
  -- in row `e` only column `k` can land on column `k`
  by_cases hA : (idx (ix2 e (0 : Fin 1))).toInt = (r.val : Int)
  · simp [hA]
  · simp [hA]

/-- COLUMN 0 OF THE `K`-WIDE ROW SCATTER IS THE 1-WIDE ROW SCATTER OF THE COLUMNS 0 of the operand and of the
    updates, at the same scatter indices. -/
theorem hostScatterAdd_row_col0 (hK : 0 < K)
    (wf1 : ScatterDims.WF ⟨2, ![N, 1]⟩ ⟨2, ![E, 1]⟩ ⟨2, ![E, 1]⟩ [1] [0] [0] 1)
    (x : (⟨2, ![N, K]⟩ : Shape).Idx → EReal) (idx : IVec ⟨2, ![E, 1]⟩ w)
    (upd : (⟨2, ![E, K]⟩ : Shape).Idx → EReal) (r : Fin N) :
    Ideal.hostScatterAdd (rowScatterDims N K E wf) x idx upd (ix2 r ⟨0, hK⟩) =
      Ideal.hostScatterAdd (rowScatterDims N 1 E wf1) (fun i => x (ix2 (i 0) ⟨0, hK⟩)) idx
        (fun j => upd (ix2 (j 0) ⟨0, hK⟩)) (ix2 r (0 : Fin 1)) := by
  rw [hostScatterAdd_row_apply, hostScatterAdd_row_apply]
  rfl

end Rows

/-! ## 2. A writing scatter with distinct landing indices -/

section SetScatter
variable {α : Type} {s si u : Shape} {w : Nat}

/-- A scatter that WRITES its updates (the body returns the update), every update element `j` landing inside
    the operand at `g j` with `g` injective: at `g j` the result is `upd j`. Taking the update elements in
    row-major order, the running array at `g j` is `upd j` once `j` has been taken and the operand's element
    before, since no other element lands there. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  have key : ∀ (l : List (Fin u.numel)) (r : s.Idx → α),
      (l.foldl (fun r n =>
        match d.resultIdx? (u.rowMajor.symm n) idx with
        | some i => fun i' => if i' = i then (fun _ b => b) (r i) (upd (u.rowMajor.symm n)) else r i'
        | none => r) r) (g j) = if u.rowMajor j ∈ l then upd j else r (g j) := by
    intro l
    induction l with
    | nil => intro r; simp
    | cons n l ih =>
      intro r
      rw [List.foldl_cons, ih]
      by_cases hn : u.rowMajor j = n
      · subst hn
        simp [hg]
      · have hne : ¬ g j = g (u.rowMajor.symm n) := fun h => hn (by rw [hinj h]; simp)
        by_cases hl : u.rowMajor j ∈ l
        · simp [hl]
        · simp [hl, hn, hg, hne]
  have h := key (List.finRange u.numel) x
  rw [if_pos (List.mem_finRange _)] at h
  exact h

end SetScatter

/-! ## 3. Padding by one scatter index -/

section Pad
variable {α : Type} {w : Nat}

/-- The dimension numbers that write a column `[M, 1]` into a matrix `[M, C]` at ONE scatter index (indices of
    shape `[1]`, the index vector their only axis): both update axes are window axes, no operand axis is
    inserted, the scatter index's one component is the start on operand axis 1. -/
abbrev padColDims (M C : Nat)
    (wf : ScatterDims.WF ⟨2, ![M, C]⟩ ⟨1, ![1]⟩ ⟨2, ![M, 1]⟩ [0, 1] [] [1] 0) :
    ScatterDims ⟨2, ![M, C]⟩ ⟨1, ![1]⟩ ⟨2, ![M, 1]⟩ where
  updateWindowDims := [0, 1]
  insertedWindowDims := []
  scatterDimsToOperandDims := [1]
  indexVectorDim := 0
  wf := wf

/-- Update element `(k, 0)` of the column lands at `(k, c)`, `c` the column the scatter index names. -/
theorem resultIdx?_padCol {M C : Nat}
    (wf : ScatterDims.WF ⟨2, ![M, C]⟩ ⟨1, ![1]⟩ ⟨2, ![M, 1]⟩ [0, 1] [] [1] 0)
    (idx : IVec ⟨1, ![1]⟩ w) (c : Fin C) (hidx : (idx (ix1 (0 : Fin 1))).toInt = (c.val : Int))
    (j : (⟨2, ![M, 1]⟩ : Shape).Idx) :
    (padColDims M C wf).resultIdx? j idx = some (ix2 (j 0) c : (⟨2, ![M, C]⟩ : Shape).Idx) := by
  have hs0 : (padColDims M C wf).start j idx 0 = 0 := by
    unfold ScatterDims.start
    rw [dif_neg (show ¬ (0 : Fin 2) ∈ ([1] : List (Fin 2)) by decide)]
  have hs1 : (padColDims M C wf).start j idx 1 = (idx (ix1 (0 : Fin 1))).toInt := by
    unfold ScatterDims.start
    rw [dif_pos (show (1 : Fin 2) ∈ (padColDims M C wf).scatterDimsToOperandDims from
      List.mem_singleton.mpr rfl)]
    have hsi : (padColDims M C wf).siIdx j
        ⟨List.idxOf (1 : Fin 2) (padColDims M C wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padColDims M C wf).window j 0 = (j 0).val := rfl
  have hw1 : (padColDims M C wf).window j 1 = (j 1).val := rfl
  have hj0 : (j 0).val < M := idx2_lt0 j
  have hj1 : (j 1).val < 1 := idx2_lt1 j
  have hc : c.val < C := c.isLt
  have hM : (⟨2, ![M, C]⟩ : Shape).size 0 = M := rfl
  have hC : (⟨2, ![M, C]⟩ : Shape).size 1 = C := rfl
  unfold ScatterDims.resultIdx?
  split
  · rw [Option.some.injEq]
    funext a
    refine Fin.ext ?_
    match a with
    | ⟨0, _⟩ =>
      show ((padColDims M C wf).start j idx 0 + ((padColDims M C wf).window j 0 : Nat)).toNat = (j 0).val
      rw [hs0, hw0]; omega
    | ⟨1, _⟩ =>
      show ((padColDims M C wf).start j idx 1 + ((padColDims M C wf).window j 1 : Nat)).toNat = c.val
      rw [hs1, hw1, hidx]; omega
  · rename_i h
    exfalso; apply h
    refine Fin.forall_fin_two.mpr ⟨?_, ?_⟩
    · rw [hs0, hw0, hM]; omega
    · rw [hs1, hw1, hC, hidx]; omega

/-- THE COLUMN WRITTEN AT COLUMN `c`: the result at `(k, c)` is `upd[k, 0]`, for the scatter index naming `c`. -/
theorem padCol_set_apply {M C : Nat}
    (wf : ScatterDims.WF ⟨2, ![M, C]⟩ ⟨1, ![1]⟩ ⟨2, ![M, 1]⟩ [0, 1] [] [1] 0)
    (x : (⟨2, ![M, C]⟩ : Shape).Idx → α) (idx : IVec ⟨1, ![1]⟩ w) (upd : (⟨2, ![M, 1]⟩ : Shape).Idx → α)
    (c : Fin C) (hidx : (idx (ix1 (0 : Fin 1))).toInt = (c.val : Int)) (k : Fin M) :
    Host.scatter (padColDims M C wf) (fun _ b => b) x idx upd (ix2 k c) = upd (ix2 k (0 : Fin 1)) := by
  have hinj : Function.Injective
      (fun j : (⟨2, ![M, 1]⟩ : Shape).Idx => (ix2 (j 0) c : (⟨2, ![M, C]⟩ : Shape).Idx)) := by
    intro j j' h
    have h0 : j 0 = j' 0 := congrFun h 0
    funext a
    match a with
    | ⟨0, _⟩ => exact h0
    | ⟨1, _⟩ =>
      refine Fin.ext ?_
      have h1 : (j 1).val < 1 := idx2_lt1 j
      have h1' : (j' 1).val < 1 := idx2_lt1 j'
      show (j 1).val = (j' 1).val
      omega
  exact scatter_set_apply (padColDims M C wf) x idx upd
    (fun j => (ix2 (j 0) c : (⟨2, ![M, C]⟩ : Shape).Idx))
    (resultIdx?_padCol wf idx c hidx) hinj (ix2 k (0 : Fin 1))

/-- The same at the zero scatter index: column 0 of the result is the column written. -/
theorem padCol_set_zero {M C : Nat} [NeZero C]
    (wf : ScatterDims.WF ⟨2, ![M, C]⟩ ⟨1, ![1]⟩ ⟨2, ![M, 1]⟩ [0, 1] [] [1] 0)
    (x : (⟨2, ![M, C]⟩ : Shape).Idx → α) (upd : (⟨2, ![M, 1]⟩ : Shape).Idx → α) (k : Fin M) :
    Host.scatter (padColDims M C wf) (fun _ b => b) x (fun _ => 0#32) upd (ix2 k (0 : Fin C)) =
      upd (ix2 k (0 : Fin 1)) :=
  padCol_set_apply wf x (fun _ => 0#32) upd (0 : Fin C) (by simp) k

/-- The dimension numbers that write one entry `[1]` into a vector `[M]` at ONE scatter index (indices of shape
    `[1]`, the index vector their only axis): the update's axis is a window axis, the scatter index's one
    component is the start on the operand's axis. -/
abbrev padVecDims (M : Nat)
    (wf : ScatterDims.WF ⟨1, ![M]⟩ ⟨1, ![1]⟩ ⟨1, ![1]⟩ [0] [] [0] 0) :
    ScatterDims ⟨1, ![M]⟩ ⟨1, ![1]⟩ ⟨1, ![1]⟩ where
  updateWindowDims := [0]
  insertedWindowDims := []
  scatterDimsToOperandDims := [0]
  indexVectorDim := 0
  wf := wf

/-- The one update element lands at the position `m` the scatter index names. -/
theorem resultIdx?_padVec {M : Nat}
    (wf : ScatterDims.WF ⟨1, ![M]⟩ ⟨1, ![1]⟩ ⟨1, ![1]⟩ [0] [] [0] 0)
    (idx : IVec ⟨1, ![1]⟩ w) (m : Fin M) (hidx : (idx (ix1 (0 : Fin 1))).toInt = (m.val : Int))
    (j : (⟨1, ![1]⟩ : Shape).Idx) :
    (padVecDims M wf).resultIdx? j idx = some (ix1 m) := by
  have hs0 : (padVecDims M wf).start j idx 0 = (idx (ix1 (0 : Fin 1))).toInt := by
    unfold ScatterDims.start
    rw [dif_pos (show (0 : Fin 1) ∈ (padVecDims M wf).scatterDimsToOperandDims from
      List.mem_singleton.mpr rfl)]
    have hsi : (padVecDims M wf).siIdx j
        ⟨List.idxOf (0 : Fin 1) (padVecDims M wf).scatterDimsToOperandDims,
          List.idxOf_lt_length_iff.2 (List.mem_singleton.mpr rfl)⟩ = ix1 (0 : Fin 1) := by
      funext b; refine Fin.ext ?_
      match b with
      | ⟨0, _⟩ => rfl
    rw [hsi] <;> rfl
  have hw0 : (padVecDims M wf).window j 0 = (j 0).val := rfl
  have hj0 : (j 0).val < 1 := (j 0).isLt
  have hm : m.val < M := m.isLt
  have hM : (⟨1, ![M]⟩ : Shape).size 0 = M := rfl
  unfold ScatterDims.resultIdx?
  split
  · rw [Option.some.injEq]
    funext a
    refine Fin.ext ?_
    match a with
    | ⟨0, _⟩ =>
      show ((padVecDims M wf).start j idx 0 + ((padVecDims M wf).window j 0 : Nat)).toNat = m.val
      rw [hs0, hw0, hidx]; omega
  · rename_i h
    exfalso; apply h
    refine Fin.forall_fin_one.mpr ?_
    rw [hs0, hw0, hM, hidx]; omega

/-- THE ENTRY WRITTEN AT POSITION `m`: the result at `m` is `upd[0]`, for the scatter index naming `m`. -/
theorem padVec_set_apply {M : Nat}
    (wf : ScatterDims.WF ⟨1, ![M]⟩ ⟨1, ![1]⟩ ⟨1, ![1]⟩ [0] [] [0] 0)
    (x : (⟨1, ![M]⟩ : Shape).Idx → α) (idx : IVec ⟨1, ![1]⟩ w) (upd : (⟨1, ![1]⟩ : Shape).Idx → α)
    (m : Fin M) (hidx : (idx (ix1 (0 : Fin 1))).toInt = (m.val : Int)) :
    Host.scatter (padVecDims M wf) (fun _ b => b) x idx upd (ix1 m) = upd (ix1 (0 : Fin 1)) := by
  have hinj : Function.Injective (fun _ : (⟨1, ![1]⟩ : Shape).Idx => ix1 m) := by
    intro j j' _
    funext a
    match a with
    | ⟨0, _⟩ =>
      refine Fin.ext ?_
      have h0 : (j 0).val < 1 := (j 0).isLt
      have h0' : (j' 0).val < 1 := (j' 0).isLt
      show (j 0).val = (j' 0).val
      omega
  exact scatter_set_apply (padVecDims M wf) x idx upd (fun _ => ix1 m)
    (resultIdx?_padVec wf idx m hidx) hinj (ix1 (0 : Fin 1))

/-- The same at the zero scatter index: entry 0 of the result is the entry written. -/
theorem padVec_set_zero {M : Nat} [NeZero M]
    (wf : ScatterDims.WF ⟨1, ![M]⟩ ⟨1, ![1]⟩ ⟨1, ![1]⟩ [0] [] [0] 0)
    (x : (⟨1, ![M]⟩ : Shape).Idx → α) (upd : (⟨1, ![1]⟩ : Shape).Idx → α) :
    Host.scatter (padVecDims M wf) (fun _ b => b) x (fun _ => 0#32) upd (ix1 (0 : Fin M)) =
      upd (ix1 (0 : Fin 1)) :=
  padVec_set_apply wf x (fun _ => 0#32) upd (0 : Fin M) (by simp)

end Pad

end Cert.ScatterRows

end
-- ==== Proof.LibGatherRows.lean ====
/-
  Two reads of a row gather at an index.

  Taking rows of a table by a column of start indices: for a flat table x of N entries and start indices
  idx of shape [E, 1], entry e of the result is x at idx[e, 0] read as a signed integer and clamped into
  [0, N - 1]; for a table of N rows and K columns the result's entry (e, k) is the table's entry at that
  clamped row and column k.  Both are the general gather's operand index worked out for these dimension
  numbers (one collapsed axis, the start index naming axis 0, the index vector on axis 1).
-/
import Idealize.ShloMosaic.Lib.ValueIdx

namespace Cert.HarmonicLib

open Idealize.ShloMosaic Idealize.ShloMosaic.ValueIdx

variable {α : Type}

/-- The dimension numbers of x[idx] for a flat table x : [N] and a column idx : [E, 1] of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather from a flat table: the table at the clamped start index of e. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 ⟨min (idx (ix2 (y 0) (0 : Fin 1))).toInt.toNat (N - 1), by omega⟩) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The dimension numbers of x[idx] for a table x : [N, K] of rows and a column idx : [E, 1] of start indices. -/
abbrev rowDims (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry (e, k) of the gather of rows: the table at the clamped start index of e and column k. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowDims N K E wf) x idx y
      = x (ix2 ⟨min (idx (ix2 (y 0) (0 : Fin 1))).toInt.toNat (N - 1), by omega⟩ (y 1)) := by
  unfold Host.gather
  congr 1
  funext a
  refine Fin.ext ?_
  show (rowDims N K E wf).start y idx a + (rowDims N K E wf).batchCoord y a + (rowDims N K E wf).offCoord y a = _
  rw [GatherDims.batchCoord_eq_zero _ _ _ List.not_mem_nil]
  have ha : a = 0 ∨ a = 1 := by
    revert a; show ∀ a : Fin 2, a = 0 ∨ a = 1; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K E wf).startIndexMap from List.mem_singleton.mpr rfl)]
    have hsi : (rowDims N K E wf).siIdx y ⟨List.idxOf (0 : Fin 2) (rowDims N K E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hstart : (rowDims N K E wf).start y idx (1 : Fin 2) = 0 := by
      unfold GatherDims.start
      rw [dif_neg (show (1 : Fin 2) ∉ [(0 : Fin 2)] from by decide)]
    have hk : (1 : Fin 2) ∈ (rowDims N K E wf).sKept :=
      (GatherDims.mem_sKept _ _).mpr ⟨(show (1 : Fin 2) ∉ [(0 : Fin 2)] from by decide), List.not_mem_nil⟩
    show (rowDims N K E wf).start y idx (1 : Fin 2) + 0 + (rowDims N K E wf).offCoord y (1 : Fin 2) = _
    rw [hstart]
    unfold GatherDims.offCoord
    rw [dif_pos hk]
    simp only [Nat.zero_add]
    rfl

end Cert.HarmonicLib
-- ==== Proof.LibRows3.lean ====
/-
  ROWS WITH A UNIT MIDDLE AXIS AND FLAT VECTORS: A SCATTER AND A GATHER READ INDEX BY INDEX.

  A scatter takes an operand array, an array of scatter indices and an array of updates; every update element
  has a LANDING INDEX in the operand: on each operand axis, a start read off the scatter indices as a SIGNED
  integer and NOT clamped, plus the element's coordinate inside its window. An update whose landing index
  leaves the operand on some axis is dropped. A gather reads, for every result element, the operand at a start
  read off the start indices as a signed integer and CLAMPED so that the slice fits, plus the element's
  coordinate inside its slice.

  1. ROWS INTO A TABLE WITH A UNIT MIDDLE AXIS. Operand x : [N, 1, K], scatter indices idx : [E, 1], updates
     upd : [E, 1, K]; the updates' axes 1 and 2 are the window axes, the operand's axis 0 is the scattered (and
     inserted) axis, the index vector is the indices' axis 1. Update element (e, 0, k) lands at
     (idx[e, 0], 0, k), and is dropped when idx[e, 0] is outside [0, N) (resultIdx?_rows3). So the accumulating
     scatter over the extended reals is, at (r, 0, k),

         x[r, 0, k] + ∑ e, (if idx[e, 0] = r then upd[e, 0, k] else 0)

     (scatter3_apply).

  2. ENTRIES INTO A FLAT VECTOR. Operand x : [N], scatter indices idx : [E, 1], updates upd : [E]; there is no
     window axis, the operand's one axis is scattered and inserted. Update element e lands at idx[e, 0], and is
     dropped when that is outside [0, N) (resultIdx?_vec). The accumulating scatter is, at r,

         x[r] + ∑ e, (if idx[e, 0] = r then upd[e] else 0)

     (scatter1_apply).

  3. ROWS OUT OF A TABLE WITH A UNIT MIDDLE AXIS. Operand x : [N, 1, K], start indices idx : [E, 1], result
     [E, 1, K], slices of shape [1, 1, K] with the operand's axis 0 collapsed: the result's entry (e, b, k) is
     the table's entry at row idx[e, 0] read signed and clamped into [0, N - 1], middle coordinate b and
     column k (gather3_apply).

  The conditions on each family's dimension numbers (ScatterDims.WF, GatherDims.WF) are an argument wf: they
  are decided on the literal shapes of a program.
-/
import Idealize.ShloMosaic.Lib.ValueIdx
import Idealize.ShloMosaic.PureOps.Ideal
import Idealize.ShloMosaic.PureOps.ShapeOps

noncomputable section

open scoped BigOperators

namespace Cert.Rows3

open Idealize.ShloMosaic Idealize.ShloMosaic.ValueIdx

/-! ## 0. Rank-3 and rank-1 index sets by coordinates -/

/-- A rank-3 index's first coordinate is below the first extent, written as the extent itself. -/
theorem idx3_lt0 {n0 n1 n2 : Nat} (j : (⟨3, ![n0, n1, n2]⟩ : Shape).Idx) : (j 0).val < n0 := (j 0).isLt
/-- A rank-3 index's second coordinate is below the second extent. -/
theorem idx3_lt1 {n0 n1 n2 : Nat} (j : (⟨3, ![n0, n1, n2]⟩ : Shape).Idx) : (j 1).val < n1 := (j 1).isLt
/-- A rank-3 index's third coordinate is below the third extent. -/
theorem idx3_lt2 {n0 n1 n2 : Nat} (j : (⟨3, ![n0, n1, n2]⟩ : Shape).Idx) : (j 2).val < n2 := (j 2).isLt
/-- A rank-1 index's coordinate is below the extent. -/
theorem idx1_lt0 {n : Nat} (j : (⟨1, ![n]⟩ : Shape).Idx) : (j 0).val < n := (j 0).isLt

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## 1. Rows into a table with a unit middle axis -/

/-- The dimension numbers of a scatter of rows into a table with a unit middle axis: operand [N, 1, K], scatter
    indices [E, 1], updates [E, 1, K]; update window axes 1 and 2, inserted operand axis 0, the scatter index
    component goes to operand axis 0, the index vector is axis 1 of the indices. -/
abbrev rows3ScatterDims (N K E : Nat)
    (wf : ScatterDims.WF ⟨3, ![N, 1, K]⟩ ⟨2, ![E, 1]⟩ ⟨3, ![E, 1, K]⟩ [1, 2] [0] [0] 1) :
    ScatterDims ⟨3, ![N, 1, K]⟩ ⟨2, ![E, 1]⟩ ⟨3, ![E, 1, K]⟩ where
  updateWindowDims := [1, 2]
  insertedWindowDims := [0]
  scatterDimsToOperandDims := [0]
  indexVectorDim := 1
  wf := wf

section Rows3
variable {N K E w : Nat}
  (wf : ScatterDims.WF ⟨3, ![N, 1, K]⟩ ⟨2, ![E, 1]⟩ ⟨3, ![E, 1, K]⟩ [1, 2] [0] [0] 1)

/-- On the row axis the window of update element j starts at idx[j₀, 0], read signed. -/
theorem start_rows3_0 (j : (⟨3, ![E, 1, K]⟩ : Shape).Idx) (idx : IVec ⟨2, ![E, 1]⟩ w) :
    (rows3ScatterDims N K E wf).start j idx 0 = (idx (ix2 (j 0) (0 : Fin 1))).toInt := by
  unfold ScatterDims.start
  rw [dif_pos (show (0 : Fin 3) ∈ (rows3ScatterDims N K E wf).scatterDimsToOperandDims from
    List.mem_singleton.mpr rfl)]
  have hsi : (rows3ScatterDims N K E wf).siIdx j
      ⟨List.idxOf (0 : Fin 3) (rows3ScatterDims N K E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- On the unit middle axis, which no scatter index component names, the window starts at 0. -/
theorem start_rows3_1 (j : (⟨3, ![E, 1, K]⟩ : Shape).Idx) (idx : IVec ⟨2, ![E, 1]⟩ w) :
    (rows3ScatterDims N K E wf).start j idx 1 = 0 := by
  unfold ScatterDims.start
  rw [dif_neg (show ¬ (1 : Fin 3) ∈ ([0] : List (Fin 3)) by decide)]

/-- On the column axis, which no scatter index component names, the window starts at 0. -/
theorem start_rows3_2 (j : (⟨3, ![E, 1, K]⟩ : Shape).Idx) (idx : IVec ⟨2, ![E, 1]⟩ w) :
    (rows3ScatterDims N K E wf).start j idx 2 = 0 := by
  unfold ScatterDims.start
  rw [dif_neg (show ¬ (2 : Fin 3) ∈ ([0] : List (Fin 3)) by decide)]

/-- The row axis is inserted: the window coordinate on it is 0. -/
theorem window_rows3_0 (j : (⟨3, ![E, 1, K]⟩ : Shape).Idx) : (rows3ScatterDims N K E wf).window j 0 = 0 := rfl

/-- On the unit middle axis the window coordinate of update element j is its middle coordinate j₁. -/
theorem window_rows3_1 (j : (⟨3, ![E, 1, K]⟩ : Shape).Idx) :
    (rows3ScatterDims N K E wf).window j 1 = (j 1).val := rfl

/-- On the column axis the window coordinate of update element j is its column j₂. -/
theorem window_rows3_2 (j : (⟨3, ![E, 1, K]⟩ : Shape).Idx) :
    (rows3ScatterDims N K E wf).window j 2 = (j 2).val := rfl

/-- THE LANDING INDEX: update element j = (e, 0, k) lands on operand index i exactly when idx[e, 0], read
    signed and not clamped, is i's row and k is i's column (the two middle coordinates are both 0). When
    idx[e, 0] is outside [0, N) it lands nowhere: no i has that row. -/
theorem resultIdx?_rows3 (j : (⟨3, ![E, 1, K]⟩ : Shape).Idx) (idx : IVec ⟨2, ![E, 1]⟩ w)
    (i : (⟨3, ![N, 1, K]⟩ : Shape).Idx) :
    (rows3ScatterDims N K E wf).resultIdx? j idx = some i ↔
      ((idx (ix2 (j 0) (0 : Fin 1))).toInt = ((i 0).val : Int) ∧ (j 2).val = (i 2).val) := by
  have hs0 := start_rows3_0 wf j idx
  have hs1 := start_rows3_1 wf j idx
  have hs2 := start_rows3_2 wf j idx
  have hw0 := window_rows3_0 wf j
  have hw1 := window_rows3_1 wf j
  have hw2 := window_rows3_2 wf j
  have hi0 : (i 0).val < N := idx3_lt0 i
  have hi1 : (i 1).val < 1 := idx3_lt1 i
  have hi2 : (i 2).val < K := idx3_lt2 i
  have hj1 : (j 1).val < 1 := idx3_lt1 j
  have hj2 : (j 2).val < K := idx3_lt2 j
  have hN : (⟨3, ![N, 1, K]⟩ : Shape).size 0 = N := rfl
  have h1 : (⟨3, ![N, 1, K]⟩ : Shape).size 1 = 1 := rfl
  have hK : (⟨3, ![N, 1, K]⟩ : Shape).size 2 = K := rfl
  unfold ScatterDims.resultIdx?
  split
  · -- the landing index is inside the operand: compare it with i coordinate by coordinate
    rename_i h
    rw [Option.some.injEq]
    have h0 := h 0
    rw [hs0, hw0] at h0
    constructor
    · intro hf
      have e0 := congrArg (fun f => (f 0).val) hf
      have e2 := congrArg (fun f => (f 2).val) hf
      simp only [hs0, hs2, hw0, hw2] at e0 e2
      constructor <;> omega
    · rintro ⟨e0, e2⟩
      funext a
      refine Fin.ext ?_
      match a with
      | ⟨0, _⟩ =>
        show ((rows3ScatterDims N K E wf).start j idx 0 + ((rows3ScatterDims N K E wf).window j 0 : Nat)).toNat
          = (i 0).val
        rw [hs0, hw0]; omega
      | ⟨1, _⟩ =>
        show ((rows3ScatterDims N K E wf).start j idx 1 + ((rows3ScatterDims N K E wf).window j 1 : Nat)).toNat
          = (i 1).val
        rw [hs1, hw1]; omega
      | ⟨2, _⟩ =>
        show ((rows3ScatterDims N K E wf).start j idx 2 + ((rows3ScatterDims N K E wf).window j 2 : Nat)).toNat
          = (i 2).val
        rw [hs2, hw2]; omega
  · -- it is outside: then idx[e, 0] is no row of the operand
    rename_i h
    constructor
    · intro hf; cases hf
    · rintro ⟨e0, e2⟩
      exfalso; apply h
      intro a
      match a with
      | ⟨0, _⟩ =>
        show 0 ≤ (rows3ScatterDims N K E wf).start j idx 0 + ((rows3ScatterDims N K E wf).window j 0 : Nat) ∧
          (rows3ScatterDims N K E wf).start j idx 0 + ((rows3ScatterDims N K E wf).window j 0 : Nat)
            < ((⟨3, ![N, 1, K]⟩ : Shape).size 0 : Nat)
        rw [hs0, hw0, hN]; omega
      | ⟨1, _⟩ =>
        show 0 ≤ (rows3ScatterDims N K E wf).start j idx 1 + ((rows3ScatterDims N K E wf).window j 1 : Nat) ∧
          (rows3ScatterDims N K E wf).start j idx 1 + ((rows3ScatterDims N K E wf).window j 1 : Nat)
            < ((⟨3, ![N, 1, K]⟩ : Shape).size 1 : Nat)
        rw [hs1, hw1, h1]; omega
      | ⟨2, _⟩ =>
        show 0 ≤ (rows3ScatterDims N K E wf).start j idx 2 + ((rows3ScatterDims N K E wf).window j 2 : Nat) ∧
          (rows3ScatterDims N K E wf).start j idx 2 + ((rows3ScatterDims N K E wf).window j 2 : Nat)
            < ((⟨3, ![N, 1, K]⟩ : Shape).size 2 : Nat)
        rw [hs2, hw2, hK]; omega

/-- THE ACCUMULATING SCATTER AT (r, 0, k), over the extended reals: the operand's element plus the sum, over
    the update rows e whose scatter index idx[e, 0] (signed, not clamped) is r, of upd[e, 0, k]. Column k of the
    result only sees column k of the operand and of the updates; an update row whose scatter index is outside
    [0, N) is dropped. -/
theorem scatter3_apply (x : (⟨3, ![N, 1, K]⟩ : Shape).Idx → EReal) (idx : IVec ⟨2, ![E, 1]⟩ w)
    (upd : (⟨3, ![E, 1, K]⟩ : Shape).Idx → EReal) (r : Fin N) (k : Fin K) :
    Ideal.hostScatterAdd (rows3ScatterDims N K E wf) x idx upd (ix3 r (0 : Fin 1) k) =
      x (ix3 r (0 : Fin 1) k) +
        ∑ e : Fin E, if (idx (ix2 e (0 : Fin 1))).toInt = (r.val : Int) then upd (ix3 e (0 : Fin 1) k) else 0 := by
  show x (ix3 r (0 : Fin 1) k) + ∑ j ∈ Finset.univ.filter
      (fun j => (rows3ScatterDims N K E wf).resultIdx? j idx = some (ix3 r (0 : Fin 1) k)), upd j = _
  congr 1
  -- the sum over the update elements that land on (r, 0, k), as a triple sum over the coordinates
  rw [Finset.sum_filter, sum_idx3]
  refine Finset.sum_congr rfl fun e _ => ?_
  -- the unit middle axis has the one coordinate 0
  rw [Fin.sum_univ_one]
  have key : ∀ c : Fin K,
      ((rows3ScatterDims N K E wf).resultIdx? (ix3 e (0 : Fin 1) c) idx = some (ix3 r (0 : Fin 1) k)) ↔
        ((idx (ix2 e (0 : Fin 1))).toInt = (r.val : Int) ∧ c = k) := by
    intro c
    rw [resultIdx?_rows3]
    exact ⟨fun h => ⟨h.1, Fin.ext h.2⟩, fun h => ⟨h.1, congrArg Fin.val h.2⟩⟩
  simp only [key]
  -- in row e only column k can land on column k
  by_cases hA : (idx (ix2 e (0 : Fin 1))).toInt = (r.val : Int)
  · simp [hA]
  · simp [hA]

end Rows3

/-! ## 2. Entries into a flat vector -/

/-- The dimension numbers of a scatter of single entries into a flat vector: operand [N], scatter indices
    [E, 1], updates [E]; no update window axis, the operand's one axis is inserted, the scatter index component
    goes to it, the index vector is axis 1 of the indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- The window of update element j starts at idx[j₀, 0], read signed. -/
theorem start_vec (j : (⟨1, ![E]⟩ : Shape).Idx) (idx : IVec ⟨2, ![E, 1]⟩ w) :
    (vecScatterDims N E wf).start j idx 0 = (idx (ix2 (j 0) (0 : Fin 1))).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi] <;> rfl

/-- The operand's one axis is inserted: the window coordinate on it is 0. -/
theorem window_vec (j : (⟨1, ![E]⟩ : Shape).Idx) : (vecScatterDims N E wf).window j 0 = 0 := rfl

/-- THE LANDING INDEX: update element e lands on operand position i exactly when idx[e, 0], read signed and not
    clamped, is i. When idx[e, 0] is outside [0, N) it lands nowhere. -/
theorem resultIdx?_vec (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) (0 : Fin 1))).toInt = ((i 0).val : Int) := by
  have hs0 := start_vec wf j idx
  have hw0 := window_vec wf j
  have hi0 : (i 0).val < N := idx1_lt0 i
  have hN : (⟨1, ![N]⟩ : Shape).size 0 = N := rfl
  unfold ScatterDims.resultIdx?
  split
  · -- the landing position is inside the operand: compare it with i
    rename_i h
    rw [Option.some.injEq]
    have h0 := h 0
    rw [hs0, hw0] at h0
    constructor
    · intro hf
      have e0 := congrArg (fun f => (f 0).val) hf
      simp only [hs0, hw0] at e0
      omega
    · intro e0
      funext a
      refine Fin.ext ?_
      match a with
      | ⟨0, _⟩ =>
        show ((vecScatterDims N E wf).start j idx 0 + ((vecScatterDims N E wf).window j 0 : Nat)).toNat
          = (i 0).val
        rw [hs0, hw0]; omega
  · -- it is outside: then idx[e, 0] is no position of the operand
    rename_i h
    constructor
    · intro hf; cases hf
    · intro e0
      exfalso; apply h
      refine Fin.forall_fin_one.mpr ?_
      rw [hs0, hw0, hN]; omega

/-- THE ACCUMULATING SCATTER AT r, over the extended reals: the operand's entry plus the sum, over the update
    entries e whose scatter index idx[e, 0] (signed, not clamped) is r, of upd[e]; an update entry whose
    scatter index is outside [0, N) is dropped. -/
theorem scatter1_apply (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r) =
      x (ix1 r) + ∑ e : Fin E, if (idx (ix2 e (0 : Fin 1))).toInt = (r.val : Int) then upd (ix1 e) else 0 := by
  show x (ix1 r) + ∑ j ∈ Finset.univ.filter
      (fun j => (vecScatterDims N E wf).resultIdx? j idx = some (ix1 r)), upd j = _
  congr 1
  -- the sum over the update entries that land on r, as a sum over their one coordinate
  rw [Finset.sum_filter, sum_idx1]
  refine Finset.sum_congr rfl fun e _ => ?_
  have key : ((vecScatterDims N E wf).resultIdx? (ix1 e) idx = some (ix1 r)) ↔
      (idx (ix2 e (0 : Fin 1))).toInt = (r.val : Int) := by
    rw [resultIdx?_vec]
    exact Iff.rfl
  simp only [key]

end Vec

/-! ## 3. Rows out of a table with a unit middle axis -/

section Gather3
variable {α : Type}

/-- The dimension numbers of x[idx] for a table x : [N, 1, K] of rows with a unit middle axis and a column
    idx : [E, 1] of start indices: slices of shape [1, 1, K], the operand's axis 0 collapsed and named by the
    start index's one component, the result's axes 1 and 2 the offset axes, the index vector on axis 1. -/
abbrev rows3GatherDims (N K E : Nat)
    (wf : GatherDims.WF ⟨3, ![N, 1, K]⟩ ⟨2, ![E, 1]⟩ ⟨3, ![E, 1, K]⟩ [1, 2] [0] [] [0] [] 1 ![1, 1, K]) :
    GatherDims ⟨3, ![N, 1, K]⟩ ⟨2, ![E, 1]⟩ ⟨3, ![E, 1, K]⟩ where
  offsetDims := [1, 2]
  collapsedSliceDims := [0]
  operandBatchingDims := []
  startIndicesBatchingDims := []
  startIndexMap := [0]
  indexVectorDim := 1
  sliceSizes := ![1, 1, K]
  wf := wf

/-- Entry (e, b, k) of the gather of rows: the table at the start index of e read signed and clamped into
    [0, N - 1], middle coordinate b and column k. On the row axis the slice has one element, so the clamp keeps
    the start at most N - 1 and the offset is 0; the other two axes are not named by the start index, so the
    start is 0 there and the offset is the result's own coordinate. -/
theorem gather3_apply {N K E w : Nat} (hN : 0 < N)
    (wf : GatherDims.WF ⟨3, ![N, 1, K]⟩ ⟨2, ![E, 1]⟩ ⟨3, ![E, 1, K]⟩ [1, 2] [0] [] [0] [] 1 ![1, 1, K])
    (x : (⟨3, ![N, 1, K]⟩ : Shape).Idx → α) (idx : IVec ⟨2, ![E, 1]⟩ w) (y : (⟨3, ![E, 1, K]⟩ : Shape).Idx) :
    Host.gather (rows3GatherDims N K E wf) x idx y
      = x (ix3 ⟨min (idx (ix2 (y 0) (0 : Fin 1))).toInt.toNat (N - 1), by omega⟩ (y 1) (y 2)) := by
  unfold Host.gather
  congr 1
  funext a
  refine Fin.ext ?_
  show (rows3GatherDims N K E wf).start y idx a + (rows3GatherDims N K E wf).batchCoord y a
    + (rows3GatherDims N K E wf).offCoord y a = _
  rw [GatherDims.batchCoord_eq_zero _ _ _ List.not_mem_nil]
  have ha : a = 0 ∨ a = 1 ∨ a = 2 := by
    revert a; show ∀ a : Fin 3, a = 0 ∨ a = 1 ∨ a = 2; decide
  rcases ha with rfl | rfl | rfl
  · -- the row axis: collapsed, so no offset; the start is the clamped start index
    rw [GatherDims.offCoord_eq_zero _ _ _
      (fun h => ((GatherDims.mem_sKept _ _).mp h).1 (List.mem_singleton.mpr rfl))]
    simp only [Nat.add_zero]
    unfold GatherDims.start
    rw [dif_pos (show (0 : Fin 3) ∈ (rows3GatherDims N K E wf).startIndexMap from List.mem_singleton.mpr rfl)]
    have hsi : (rows3GatherDims N K E wf).siIdx y
        ⟨List.idxOf (0 : Fin 3) (rows3GatherDims N K E wf).startIndexMap,
          List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · -- the unit middle axis: start 0, offset the result's middle coordinate
    have hstart : (rows3GatherDims N K E wf).start y idx (1 : Fin 3) = 0 := by
      unfold GatherDims.start
      rw [dif_neg (show (1 : Fin 3) ∉ [(0 : Fin 3)] from by decide)]
    have hk : (1 : Fin 3) ∈ (rows3GatherDims N K E wf).sKept :=
      (GatherDims.mem_sKept _ _).mpr ⟨(show (1 : Fin 3) ∉ [(0 : Fin 3)] from by decide), List.not_mem_nil⟩
    show (rows3GatherDims N K E wf).start y idx (1 : Fin 3) + 0
      + (rows3GatherDims N K E wf).offCoord y (1 : Fin 3) = _
    rw [hstart]
    unfold GatherDims.offCoord
    rw [dif_pos hk]
    simp only [Nat.zero_add]
    rfl
  · -- the column axis: start 0, offset the result's column
    have hstart : (rows3GatherDims N K E wf).start y idx (2 : Fin 3) = 0 := by
      unfold GatherDims.start
      rw [dif_neg (show (2 : Fin 3) ∉ [(0 : Fin 3)] from by decide)]
    have hk : (2 : Fin 3) ∈ (rows3GatherDims N K E wf).sKept :=
      (GatherDims.mem_sKept _ _).mpr ⟨(show (2 : Fin 3) ∉ [(0 : Fin 3)] from by decide), List.not_mem_nil⟩
    show (rows3GatherDims N K E wf).start y idx (2 : Fin 3) + 0
      + (rows3GatherDims N K E wf).offCoord y (2 : Fin 3) = _
    rw [hstart]
    unfold GatherDims.offCoord
    rw [dif_pos hk]
    simp only [Nat.zero_add]
    rfl

end Gather3

end Cert.Rows3

end
-- ==== Proof.HostTerms.lean ====
/-
  The arrays the kernel is launched on, as functions of the eight arguments, read index by index.

  Before the launch the host reshapes the node and edge features to matrices, wraps the source indices,
  gathers the source nodes' rows, scatter-adds the gathered rows, the edge rows and a vector of ones into
  zero arrays at the destination indices, cuts each weight matrix into its two square halves and
  transposes them, and reshapes each bias into a row.  Read at an index, these ten arrays are the node
  features, the two aggregated tables and the arrival counts of the layer, the halves of the weights
  transposed, and the biases; so the update of the ten arrays, reshaped back, is the layer's
  aggregate-then-transform spelling.
-/
import proofs.«148901_j5403068859071_2_alg».proof.Proof.Blocks
import proofs.«148901_j5403068859071_2_alg».proof.Proof.LibScatterRows
import proofs.«148901_j5403068859071_2_alg».proof.Proof.LibGatherRows
import proofs.«148901_j5403068859071_2_alg».proof.Proof.LibRows3
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.HostTerms

open Cert.KernelIdeal Cert.KernelIdeal.Gen Idealize.ShloMosaic Idealize.ShloMosaic.ValueIdx

/-! ## The ten arrays -/

/-- The node features as a matrix: the reshape of the first argument. -/
def t0 (x0 : S50000x1x128.Idx → EReal) : S50000x128.Idx → EReal :=
  shapeCast S50000x128 x0 shapeCasts_S50000x1x128_S50000x128

/-- The source indices with a negative value wrapped once by the table's length. -/
def wrapped (x6 : IVec S640000 32) : IVec S640000 32 :=
  select (cmpi .slt x6 (broadcastInDim S640000 ![] bcast_S_S640000 (constantI S_ 32 0#32)))
    (addi x6 (broadcastInDim S640000 ![] bcast_S_S640000 (constantI S_ 32 50000#32))) x6

/-- The rows of the node matrix gathered at the wrapped source indices, one per edge. -/
def gathered (x0 : S50000x1x128.Idx → EReal) (x6 : IVec S640000 32) : S640000x128.Idx → EReal :=
  Host.gather gather_S50000x128_S640000x1_S640000x128_1_0_n_n_0_1_1128 (t0 x0)
    (broadcastInDim S640000x1 ![0] bcast_S640000_S640000x1_0 (wrapped x6))

/-- The gathered source rows scatter-added into a zero matrix at the destination indices. -/
def t11 (x0 : S50000x1x128.Idx → EReal) (x6 x7 : IVec S640000 32) : S50000x128.Idx → EReal :=
  Host.scatterAdd (F := Ideal) (φ := .f32) scatter_S50000x128_S640000x1_S640000x128_1_0_0_1
    (broadcastInDim S50000x128 ![] bcast_S_S50000x128 (constant (F := Ideal) S_ .f32 0x00000000#32))
    (broadcastInDim S640000x1 ![0] bcast_S640000_S640000x1_0 x7)
    (gathered x0 x6)

/-- The edge features, reshaped to a matrix, scatter-added into a zero matrix at the destination indices. -/
def t14 (x1 : S640000x1x128.Idx → EReal) (x7 : IVec S640000 32) : S50000x128.Idx → EReal :=
  Host.scatterAdd (F := Ideal) (φ := .f32) scatter_S50000x128_S640000x1_S640000x128_1_0_0_1
    (broadcastInDim S50000x128 ![] bcast_S_S50000x128 (constant (F := Ideal) S_ .f32 0x00000000#32))
    (broadcastInDim S640000x1 ![0] bcast_S640000_S640000x1_0 x7)
    (shapeCast S640000x128 x1 shapeCasts_S640000x1x128_S640000x128)

/-- A vector of ones scatter-added into a zero vector at the destination indices, reshaped to a column. -/
def t19 (x7 : IVec S640000 32) : S50000x1.Idx → EReal :=
  shapeCast S50000x1
    (Host.scatterAdd (F := Ideal) (φ := .f32) scatter_S50000_S640000x1_S640000_n_0_0_1
      (broadcastInDim S50000 ![] bcast_S_S50000 (constant (F := Ideal) S_ .f32 0x00000000#32))
      (broadcastInDim S640000x1 ![0] bcast_S640000_S640000x1_0 x7)
      (broadcastInDim S640000 ![] bcast_S_S640000 (constant (F := Ideal) S_ .f32 0x3F800000#32)))
    shapeCasts_S50000_S50000x1

/-- The left square half of a 128 × 256 matrix, transposed. -/
def tLo (x : S128x256.Idx → EReal) : S128x128.Idx → EReal :=
  transpose S128x128 [1, 0] (extractStridedSlice S128x128 ![0, 0] x slices_S128x256_S128x128_0_0)
    transposes_S128x128_S128x128_1_0

/-- The right square half of a 128 × 256 matrix, transposed. -/
def tHi (x : S128x256.Idx → EReal) : S128x128.Idx → EReal :=
  transpose S128x128 [1, 0] (extractStridedSlice S128x128 ![0, 128] x slices_S128x256_S128x128_0_128)
    transposes_S128x128_S128x128_1_0

/-- A bias vector as a row. -/
def tRow (x : S128.Idx → EReal) : S1x128.Idx → EReal :=
  shapeCast S1x128 x shapeCasts_S128_S1x128

/-- The message weights' left half, transposed. -/
abbrev t21 (x2 : S128x256.Idx → EReal) : S128x128.Idx → EReal := tLo x2
/-- The message weights' right half, transposed. -/
abbrev t23 (x2 : S128x256.Idx → EReal) : S128x128.Idx → EReal := tHi x2
/-- The message bias as a row. -/
abbrev t24 (x3 : S128.Idx → EReal) : S1x128.Idx → EReal := tRow x3
/-- The update weights' left half, transposed. -/
abbrev t26 (x4 : S128x256.Idx → EReal) : S128x128.Idx → EReal := tLo x4
/-- The update weights' right half, transposed. -/
abbrev t28 (x4 : S128x256.Idx → EReal) : S128x128.Idx → EReal := tHi x4
/-- The update bias as a row. -/
abbrev t29 (x5 : S128.Idx → EReal) : S1x128.Idx → EReal := tRow x5

/-! ## Layout operations read at an index -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A vector `[a]` broadcast along a new trailing unit axis reads, at `(i, u)`, the operand at `i`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h v (ix2 i u) = v (ix1 i) :=
  broadcastInDim_apply _ h v _ _ (fun c => by
    match c with
    | ⟨0, _⟩ =>
      show i.val = if a = 1 then 0 else i.val
      split_ifs with h1
      · have := i.isLt; omega
      · rfl)

end Layout

/-! ## The ten arrays read at an index -/

/-- The node matrix at `(n, j)` is the node features at `(n, 0, j)`. -/
theorem t0_apply (x0 : S50000x1x128.Idx → EReal) (n : Fin 50000) (j : Fin 128) :
    t0 x0 (ix2 n j) = x0 (ix3 n (0 : Fin 1) j) :=
  shapeCast_a1b_ab_apply x0 _ n j

/-- The wrapped source index of edge `e` is the layer's wrapped index of its source. -/
theorem wrapped_apply (x6 : IVec S640000 32) (e : Fin 640000) :
    wrapped x6 (ix1 e) = Cert.Layer.wrapIdx (x6 (ix1 e)) := rfl

/-- Row `e` of the gathered matrix is the row of the node features that edge `e` reads. -/
theorem gathered_apply (x0 : S50000x1x128.Idx → EReal) (x6 : IVec S640000 32) (e : Fin 640000) (k : Fin 128) :
    gathered x0 x6 (ix2 e k) = x0 (ix3 (Cert.Layer.srcRow x6 e) (0 : Fin 1) k) := by
  unfold gathered
  show Host.gather (Cert.HarmonicLib.rowDims 50000 128 640000
      gather_S50000x128_S640000x1_S640000x128_1_0_n_n_0_1_1128_wf) _ _ (ix2 e k) = _
  rw [Cert.HarmonicLib.gather_row_apply (by decide)]
  have hidx : (broadcastInDim S640000x1 ![0] bcast_S640000_S640000x1_0 (wrapped x6)) (ix2 e (0 : Fin 1))
      = Cert.Layer.wrapIdx (x6 (ix1 e)) :=
    (broadcastInDim_a_a1_apply (wrapped x6) _ e 0).trans (wrapped_apply x6 e)
  show t0 x0 (ix2 ⟨min ((broadcastInDim S640000x1 ![0] bcast_S640000_S640000x1_0 (wrapped x6))
      (ix2 e (0 : Fin 1))).toInt.toNat (50000 - 1), _⟩ k) = _
  simp only [hidx]
  exact t0_apply x0 (Cert.Layer.srcRow x6 e) k

/-- The host's accumulating scatter on the extended reals is the exact sum. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The program's record of the row scatter is the scatter of rows into a matrix. -/
theorem rowRecord_eq : scatter_S50000x128_S640000x1_S640000x128_1_0_0_1
    = Cert.ScatterRows.rowScatterDims 50000 128 640000 scatter_S50000x128_S640000x1_S640000x128_1_0_0_1_wf := rfl

/-- The program's record of the count scatter is the scatter of entries into a vector. -/
theorem vecRecord_eq : scatter_S50000_S640000x1_S640000_n_0_0_1
    = Cert.Rows3.vecScatterDims 50000 640000 scatter_S50000_S640000x1_S640000_n_0_0_1_wf := rfl

/-- The first aggregated table at `(n, j)`: feature `j` of the source nodes summed over the edges arriving at `n`. -/
theorem t11_apply (x0 : S50000x1x128.Idx → EReal) (x6 x7 : IVec S640000 32) (n : Fin 50000) (j : Fin 128) :
    t11 x0 x6 x7 (ix2 n j) = Cert.Layer.aggSrc x0 x6 x7 n j := by
  unfold t11 Cert.Layer.aggSrc
  rw [scatterAdd_ideal, rowRecord_eq, Cert.ScatterRows.hostScatterAdd_row_apply]
  have hz : (broadcastInDim S50000x128 ![] bcast_S_S50000x128 (constant (F := Ideal) S_ .f32 0x00000000#32))
      (ix2 n j) = Cert.Layer.zeroW := rfl
  have hidx : ∀ e : Fin 640000,
      (broadcastInDim S640000x1 ![0] bcast_S640000_S640000x1_0 x7) (ix2 e (0 : Fin 1)) = x7 (ix1 e) :=
    fun e => broadcastInDim_a_a1_apply x7 _ e 0
  have hupd : ∀ e : Fin 640000,
      gathered x0 x6 (ix2 e j) = x0 (ix3 (Cert.Layer.srcRow x6 e) (0 : Fin 1) j) :=
    fun e => gathered_apply x0 x6 e j
  simp only [hz, hidx, hupd]

/-- The second aggregated table at `(n, j)`: feature `j` of the edges arriving at `n`, summed. -/
theorem t14_apply (x1 : S640000x1x128.Idx → EReal) (x7 : IVec S640000 32) (n : Fin 50000) (j : Fin 128) :
    t14 x1 x7 (ix2 n j) = Cert.Layer.aggEdge x1 x7 n j := by
  unfold t14 Cert.Layer.aggEdge
  rw [scatterAdd_ideal, rowRecord_eq, Cert.ScatterRows.hostScatterAdd_row_apply]
  have hz : (broadcastInDim S50000x128 ![] bcast_S_S50000x128 (constant (F := Ideal) S_ .f32 0x00000000#32))
      (ix2 n j) = Cert.Layer.zeroW := rfl
  have hidx : ∀ e : Fin 640000,
      (broadcastInDim S640000x1 ![0] bcast_S640000_S640000x1_0 x7) (ix2 e (0 : Fin 1)) = x7 (ix1 e) :=
    fun e => broadcastInDim_a_a1_apply x7 _ e 0
  have hupd : ∀ e : Fin 640000,
      (shapeCast S640000x128 x1 shapeCasts_S640000x1x128_S640000x128) (ix2 e j) = x1 (ix3 e (0 : Fin 1) j) :=
    fun e => shapeCast_a1b_ab_apply x1 _ e j
  simp only [hz, hidx, hupd]

/-- The count column at `(n, 0)`: the number of edges arriving at `n`, as a sum of ones. -/
theorem t19_apply (x7 : IVec S640000 32) (n : Fin 50000) :
    t19 x7 (ix2 n (0 : Fin 1)) = Cert.Layer.count x7 n := by
  unfold t19 Cert.Layer.count
  rw [shapeCast_a_a1_apply, scatterAdd_ideal, vecRecord_eq, Cert.Rows3.scatter1_apply]
  have hz : (broadcastInDim S50000 ![] bcast_S_S50000 (constant (F := Ideal) S_ .f32 0x00000000#32))
      (ix1 n) = Cert.Layer.zeroW := rfl
  have hidx : ∀ e : Fin 640000,
      (broadcastInDim S640000x1 ![0] bcast_S640000_S640000x1_0 x7) (ix2 e (0 : Fin 1)) = x7 (ix1 e) :=
    fun e => broadcastInDim_a_a1_apply x7 _ e 0
  have hone : ∀ e : Fin 640000,
      (broadcastInDim S640000 ![] bcast_S_S640000 (constant (F := Ideal) S_ .f32 0x3F800000#32)) (ix1 e)
        = Cert.Layer.oneW := fun _ => rfl
  simp only [hz, hidx, hone]

/-- The transposed left half at `(j, k)` is the matrix at row `k`, column `j` of its left half. -/
theorem tLo_apply (x : S128x256.Idx → EReal) (j k : Fin 128) :
    tLo x (ix2 j k) = x (ix2 k (Cert.Layer.lo j)) := by
  unfold tLo
  rw [transpose_ix2_apply]
  exact slice2_axis1_apply 0 x _ k j (Cert.Layer.lo j) (Nat.zero_add _).symm

/-- The transposed right half at `(j, k)` is the matrix at row `k`, column `j` of its right half. -/
theorem tHi_apply (x : S128x256.Idx → EReal) (j k : Fin 128) :
    tHi x (ix2 j k) = x (ix2 k (Cert.Layer.hi j)) := by
  unfold tHi
  rw [transpose_ix2_apply]
  exact slice2_axis1_apply 128 x _ k j (Cert.Layer.hi j) rfl

/-- A bias row at `(0, k)` is the bias at `k`. -/
theorem tRow_apply (x : S128.Idx → EReal) (k : Fin 128) :
    tRow x (ix2 (0 : Fin 1) k) = x (ix1 k) :=
  shapeCast_a_1a_apply x _ 0 k

/-! ## The launched arrays' update is the layer -/

/-- The update of the ten launched arrays, reshaped back to `[50000, 1, 128]`, is the layer's
aggregate-then-transform spelling of the eight arguments: each array, read at an index, is the table the
layer's formula names there. -/
theorem entry_eq (x0 : S50000x1x128.Idx → EReal) (x1 : S640000x1x128.Idx → EReal) (x2 : S128x256.Idx → EReal)
    (x3 : S128.Idx → EReal) (x4 : S128x256.Idx → EReal) (x5 : S128.Idx → EReal) (x6 x7 : IVec S640000 32) :
    shapeCast S50000x1x128
        (Cert.KernelIdeal.Blocks.arrayFnOf (t0 x0) (t11 x0 x6 x7) (t14 x1 x7) (t19 x7) (t21 x2) (t23 x2) (t24 x3)
          (t26 x4) (t28 x4) (t29 x5))
        shapeCasts_S50000x128_S50000x1x128
      = Cert.Layer.kernelOut x0 x1 x2 x3 x4 x5 x6 x7 := by
  funext i
  obtain ⟨n, u, o, rfl⟩ : ∃ (n : Fin 50000) (u : Fin 1) (o : Fin 128), i = ix3 n u o := ⟨i 0, i 1, i 2, eq_ix3 i⟩
  obtain rfl : u = 0 := Subsingleton.elim _ _
  rw [shapeCast_ab_a1b_apply]
  show Cert.Layer.update (R := 50000) (t0 x0) (t11 x0 x6 x7) (t14 x1 x7) (t19 x7) (t21 x2) (t23 x2) (t24 x3)
      (t26 x4) (t28 x4) (t29 x5) n o
    = Cert.Layer.update (R := 50000)
      (fun j => x0 (ix3 (j 0) (0 : Fin 1) (j 1)))
      (fun j => Cert.Layer.aggSrc x0 x6 x7 (j 0) (j 1))
      (fun j => Cert.Layer.aggEdge x1 x7 (j 0) (j 1))
      (fun j => Cert.Layer.count x7 (j 0))
      (fun j => x2 (ix2 (j 1) (Cert.Layer.lo (j 0))))
      (fun j => x2 (ix2 (j 1) (Cert.Layer.hi (j 0))))
      (fun j => x3 (ix1 (j 1)))
      (fun j => x4 (ix2 (j 1) (Cert.Layer.lo (j 0))))
      (fun j => x4 (ix2 (j 1) (Cert.Layer.hi (j 0))))
      (fun j => x5 (ix1 (j 1)))
      n o
  refine Cert.KernelIdeal.Blocks.update_congr_all (R := 50000) (R' := 50000)
    (t0 x0) (t11 x0 x6 x7) (t14 x1 x7) (t19 x7) (t21 x2) (t23 x2) (t24 x3) (t26 x4) (t28 x4) (t29 x5)
    (fun j => x0 (ix3 (j 0) (0 : Fin 1) (j 1)))
    (fun j => Cert.Layer.aggSrc x0 x6 x7 (j 0) (j 1))
    (fun j => Cert.Layer.aggEdge x1 x7 (j 0) (j 1))
    (fun j => Cert.Layer.count x7 (j 0))
    (fun j => x2 (ix2 (j 1) (Cert.Layer.lo (j 0))))
    (fun j => x2 (ix2 (j 1) (Cert.Layer.hi (j 0))))
    (fun j => x3 (ix1 (j 1)))
    (fun j => x4 (ix2 (j 1) (Cert.Layer.lo (j 0))))
    (fun j => x4 (ix2 (j 1) (Cert.Layer.hi (j 0))))
    (fun j => x5 (ix1 (j 1)))
    n n ?_ ?_ ?_ ?_ ?_ ?_ ?_ ?_ ?_ ?_ o
  · exact fun j => t0_apply x0 n j
  · exact fun j => t11_apply x0 x6 x7 n j
  · exact fun j => t14_apply x1 x7 n j
  · exact t19_apply x7 n
  · exact fun j k => tLo_apply x2 j k
  · exact fun j k => tHi_apply x2 j k
  · exact fun k => tRow_apply x3 k
  · exact fun j k => tLo_apply x4 j k
  · exact fun j k => tHi_apply x4 j k
  · exact fun k => tRow_apply x5 k

end Cert.KernelIdeal.HostTerms

end
-- ==== Proof.KRun.lean ====
/-
  The kernel program's result as a function of its eight arguments.

  The ten arrays the launch finds are what the host lines before it compute from the arguments; the output array
  after the launch is the array-level update of those; the host reshape after it gives the result. Read index by
  index (the host lines' gather, the three accumulating scatters, the slices and transposes of the two weight
  matrices), that is the layer spelt "aggregate, then transform".
-/
import proofs.«148901_j5403068859071_2_alg».proof.Proof.KValue
import proofs.«148901_j5403068859071_2_alg».proof.Proof.HostTerms

set_option maxRecDepth 16384

noncomputable section

namespace Cert.KernelIdeal.KRun

open Cert.KernelIdeal Cert.KernelIdeal.Gen Cert.KernelIdeal.Blocks Cert.KernelIdeal.KValue Cert.KernelIdeal.HostTerms
open Idealize.ShloMosaic Idealize.ShloMosaic.ValueIdx
open Idealize.ShloMosaic.Pipeline Idealize.ShloMosaic.TcCoe Idealize.SL.Sem Idealize.ShloMosaic.StableHlo

variable (m : (ℓ : Loc nD τ sig) → Buf (Elt Ideal) ℓ) (ρ : Dev nD → PrngReg)

/-- The launch finds window 0's array at the host lines' value of the arguments. -/
theorem entry0 (c : Dev nD) :
    (V m c (Pipeline.arrRef spec0 0) : S50000x128.Idx → EReal) = t0 (m ((c.tc : Thread nD τ).loc main_arg0)) := by
  show StableHlo.after hostOps0 (fun b => m (c, b)) (Proc.devRef .tc main_v0) = _
  after_results
  rfl

/-- The launch finds window 1's array at the host lines' value of the arguments. -/
theorem entry1 (c : Dev nD) :
    (V m c (Pipeline.arrRef spec0 1) : S50000x128.Idx → EReal) = t11 (m ((c.tc : Thread nD τ).loc main_arg0)) (m ((c.tc : Thread nD τ).loc main_arg6)) (m ((c.tc : Thread nD τ).loc main_arg7)) := by
  show StableHlo.after hostOps0 (fun b => m (c, b)) (Proc.devRef .tc main_v11) = _
  after_results
  rfl

/-- The launch finds window 2's array at the host lines' value of the arguments. -/
theorem entry2 (c : Dev nD) :
    (V m c (Pipeline.arrRef spec0 2) : S50000x128.Idx → EReal) = t14 (m ((c.tc : Thread nD τ).loc main_arg1)) (m ((c.tc : Thread nD τ).loc main_arg7)) := by
  show StableHlo.after hostOps0 (fun b => m (c, b)) (Proc.devRef .tc main_v14) = _
  after_results
  rfl

/-- The launch finds window 3's array at the host lines' value of the arguments. -/
theorem entry3 (c : Dev nD) :
    (V m c (Pipeline.arrRef spec0 3) : S50000x1.Idx → EReal) = t19 (m ((c.tc : Thread nD τ).loc main_arg7)) := by
  show StableHlo.after hostOps0 (fun b => m (c, b)) (Proc.devRef .tc main_v19) = _
  after_results
  rfl

/-- The launch finds window 4's array at the host lines' value of the arguments. -/
theorem entry4 (c : Dev nD) :
    (V m c (Pipeline.arrRef spec0 4) : S128x128.Idx → EReal) = t21 (m ((c.tc : Thread nD τ).loc main_arg2)) := by
  show StableHlo.after hostOps0 (fun b => m (c, b)) (Proc.devRef .tc main_v21) = _
  after_results
  rfl

/-- The launch finds window 5's array at the host lines' value of the arguments. -/
theorem entry5 (c : Dev nD) :
    (V m c (Pipeline.arrRef spec0 5) : S128x128.Idx → EReal) = t23 (m ((c.tc : Thread nD τ).loc main_arg2)) := by
  show StableHlo.after hostOps0 (fun b => m (c, b)) (Proc.devRef .tc main_v23) = _
  after_results
  rfl

/-- The launch finds window 6's array at the host lines' value of the arguments. -/
theorem entry6 (c : Dev nD) :
    (V m c (Pipeline.arrRef spec0 6) : S1x128.Idx → EReal) = t24 (m ((c.tc : Thread nD τ).loc main_arg3)) := by
  show StableHlo.after hostOps0 (fun b => m (c, b)) (Proc.devRef .tc main_v24) = _
  after_results
  rfl

/-- The launch finds window 7's array at the host lines' value of the arguments. -/
theorem entry7 (c : Dev nD) :
    (V m c (Pipeline.arrRef spec0 7) : S128x128.Idx → EReal) = t26 (m ((c.tc : Thread nD τ).loc main_arg4)) := by
  show StableHlo.after hostOps0 (fun b => m (c, b)) (Proc.devRef .tc main_v26) = _
  after_results
  rfl

/-- The launch finds window 8's array at the host lines' value of the arguments. -/
theorem entry8 (c : Dev nD) :
    (V m c (Pipeline.arrRef spec0 8) : S128x128.Idx → EReal) = t28 (m ((c.tc : Thread nD τ).loc main_arg4)) := by
  show StableHlo.after hostOps0 (fun b => m (c, b)) (Proc.devRef .tc main_v28) = _
  after_results
  rfl

/-- The launch finds window 9's array at the host lines' value of the arguments. -/
theorem entry9 (c : Dev nD) :
    (V m c (Pipeline.arrRef spec0 9) : S1x128.Idx → EReal) = t29 (m ((c.tc : Thread nD τ).loc main_arg5)) := by
  show StableHlo.after hostOps0 (fun b => m (c, b)) (Proc.devRef .tc main_v29) = _
  after_results
  rfl

/-- The array-level function of the arrays the launch finds, in terms of the arguments. -/
theorem arrayFn_eq (c : Dev nD) :
    arrayFn m c = arrayFnOf (t0 (m ((c.tc : Thread nD τ).loc main_arg0))) (t11 (m ((c.tc : Thread nD τ).loc main_arg0)) (m ((c.tc : Thread nD τ).loc main_arg6)) (m ((c.tc : Thread nD τ).loc main_arg7)))
      (t14 (m ((c.tc : Thread nD τ).loc main_arg1)) (m ((c.tc : Thread nD τ).loc main_arg7))) (t19 (m ((c.tc : Thread nD τ).loc main_arg7)))
      (t21 (m ((c.tc : Thread nD τ).loc main_arg2))) (t23 (m ((c.tc : Thread nD τ).loc main_arg2))) (t24 (m ((c.tc : Thread nD τ).loc main_arg3)))
      (t26 (m ((c.tc : Thread nD τ).loc main_arg4))) (t28 (m ((c.tc : Thread nD τ).loc main_arg4))) (t29 (m ((c.tc : Thread nD τ).loc main_arg5))) := by
  unfold arrayFn
  rw [entry0 m c, entry1 m c, entry2 m c, entry3 m c, entry4 m c, entry5 m c, entry6 m c, entry7 m c, entry8 m c,
    entry9 m c]

/-- THE KERNEL PROGRAM'S RUN: every weakly fair execution terminates with the result at the reshape of the
    array-level update of the host lines' arrays, and the arguments unchanged. -/
theorem run_terms : θ_run defs (onTc (τ := τ) (main (F := Ideal))) ⟨m, fun _ => 0, ρ⟩ (fun r => ∀ c : Dev nD,
      r.2.mem ((c.tc : Thread nD τ).loc main_v31)
        = shapeCast S50000x1x128 (arrayFnOf (t0 (m ((c.tc : Thread nD τ).loc main_arg0))) (t11 (m ((c.tc : Thread nD τ).loc main_arg0)) (m ((c.tc : Thread nD τ).loc main_arg6)) (m ((c.tc : Thread nD τ).loc main_arg7)))
          (t14 (m ((c.tc : Thread nD τ).loc main_arg1)) (m ((c.tc : Thread nD τ).loc main_arg7))) (t19 (m ((c.tc : Thread nD τ).loc main_arg7)))
          (t21 (m ((c.tc : Thread nD τ).loc main_arg2))) (t23 (m ((c.tc : Thread nD τ).loc main_arg2))) (t24 (m ((c.tc : Thread nD τ).loc main_arg3)))
          (t26 (m ((c.tc : Thread nD τ).loc main_arg4))) (t28 (m ((c.tc : Thread nD τ).loc main_arg4))) (t29 (m ((c.tc : Thread nD τ).loc main_arg5)))) shapeCasts_S50000x128_S50000x1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v31 (Pipeline.mem_restRefs_of main_v31 (by decide) (by decide))).trans
        ((tail_eq m c).trans (by rw [arrayFn_eq m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

/-- THE KERNEL PROGRAM'S RESULT is the layer spelt "aggregate, then transform" of its arguments. -/
theorem run : θ_run defs (onTc (τ := τ) (main (F := Ideal))) ⟨m, fun _ => 0, ρ⟩ (fun r => ∀ c : Dev nD,
      r.2.mem ((c.tc : Thread nD τ).loc main_v31)
        = Cert.Layer.kernelOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (entry_eq _ _ _ _ _ _ _ _), (h c).2⟩) (run_terms m ρ)

end Cert.KernelIdeal.KRun

end
-- ==== Proof.RefValue.lean ====
/-
  THE REFERENCE PROGRAM'S RESULT, READ INDEX BY INDEX.

  The reference computes one layer of message passing with mean aggregation in thirty-eight array operations.
  This file reads the value of every operation at an index and arrives at the closed formula refOut of the
  layer: entry (n, 0, o) of the result is

      max (∑ j, joinNode n j * wa[o, j] + ba[o]) 0,

  where the joined features of node n are its own 128 features followed by its mean message, the mean message is
  the sum over the edges arriving at n of the edges' messages divided by the arrival count raised to at least
  one, and the message of edge e is ∑ j, joinEdge e j * wm[o, j] + bm[o] with the joined features of the edge its
  source node's 128 features followed by its own.

  The stages, from the inputs outwards: the source index with a negative value wrapped once (a compare, an add
  and a select); the gather of the source rows (start read signed and clamped into the table); the join of the
  gathered rows with the edge features along the last axis; the first contraction and its bias; the accumulating
  scatter of the messages to the destination rows (index read signed and not clamped, an index outside the table
  dropped); the accumulating scatter of ones, which counts the arrivals; the division by the count raised to at
  least one; the join of the node features with the mean; the second contraction, its bias and the cut at zero.
-/
import proofs.«148901_j5403068859071_2_alg».proof.Proof.Gen.ReferenceIdeal.Read
import proofs.«148901_j5403068859071_2_alg».proof.Proof.LibRows3
import proofs.«148901_j5403068859071_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Layer

/-! ## The source index and the gather -/

/-- The wrapped source index of edge e, as the gather reads it: the source index, with 50000 added when it is
    negative. -/
theorem v5_at (x6 : (⟨S640000, .i32⟩ : BufTy).Contents (Elt Ideal)) (e : Fin 640000) :
    val_main_v5 (F := Ideal) x6 (ix2 e (0 : Fin 1)) = wrapIdx (x6 (ix1 e)) := by
  rw [val_main_v5_apply]
  have hi : idx_main_v5 (ix2 e (0 : Fin 1)) = ix1 e := by
    funext a; match a with | ⟨0, _⟩ => rfl
  rw [hi]
  rfl

/-- The program's gather record is the gather of rows out of a table with a unit middle axis. -/
theorem gather_rec :
    gather_S50000x1x128_S640000x1_S640000x1x128_12_0_n_n_0_1_11128 =
      Cert.Rows3.rows3GatherDims 50000 128 640000
        Facts₀.gather_S50000x1x128_S640000x1_S640000x1x128_12_0_n_n_0_1_11128_wf := rfl

/-- The gathered row of edge e, feature k: the node table at the edge's source row (its wrapped source index read
    signed and clamped into the table). -/
theorem v6_at (x0 : (⟨S50000x1x128, .f32⟩ : BufTy).Contents (Elt Ideal))
    (x6 : (⟨S640000, .i32⟩ : BufTy).Contents (Elt Ideal)) (e : Fin 640000) (k : Fin 128) :
    val_main_v6 (F := Ideal) x0 x6 (ix3 e (0 : Fin 1) k) = x0 (ix3 (srcRow x6 e) (0 : Fin 1) k) := by
  unfold val_main_v6
  rw [gather_rec, Cert.Rows3.gather3_apply (by decide)]
  show x0 (ix3 ⟨min (val_main_v5 (F := Ideal) x6 (ix2 e (0 : Fin 1))).toInt.toNat (50000 - 1), _⟩ (0 : Fin 1) k) = _
  unfold srcRow
  simp only [v5_at]

/-! ## The first join and the messages -/

/-- The joined row of edge e at column j: the gathered source row on the first 128 columns, the edge's own
    features on the last 128. -/
theorem v7_at (x0 : (⟨S50000x1x128, .f32⟩ : BufTy).Contents (Elt Ideal))
    (x1 : (⟨S640000x1x128, .f32⟩ : BufTy).Contents (Elt Ideal))
    (x6 : (⟨S640000, .i32⟩ : BufTy).Contents (Elt Ideal)) (e : Fin 640000) (j : Fin 256) :
    val_main_v7 (F := Ideal) x0 x1 x6 (ix3 e (0 : Fin 1) j) = joinEdge x0 x1 x6 e j := by
  unfold val_main_v7 joinEdge
  by_cases h : j.val < 128
  · rw [dif_pos h]
    rw [concatenate_pair_apply_left (t := S640000x1x256) (s₁ := S640000x1x128) (s₂ := S640000x1x128)
      (2 : Fin 3) _ _ _ (ix3 e (0 : Fin 1) j) rfl
      (ix3 e (0 : Fin 1) (⟨j.val, h⟩ : Fin 128))
      (fun b => by match b with | ⟨0, _⟩ => rfl | ⟨1, _⟩ => rfl | ⟨2, _⟩ => rfl)]
    exact v6_at x0 x6 e ⟨j.val, h⟩
  · rw [dif_neg h]
    exact concatenate_pair_apply_right (t := S640000x1x256) (s₁ := S640000x1x128) (s₂ := S640000x1x128)
      (2 : Fin 3) _ _ _ (ix3 e (0 : Fin 1) j) rfl rfl
      (ix3 e (0 : Fin 1) (⟨j.val - 128, by have := j.isLt; omega⟩ : Fin 128))
      (fun b hb => by
        match b with
        | ⟨0, _⟩ => rfl
        | ⟨1, _⟩ => rfl
        | ⟨2, _⟩ => exact absurd rfl hb)
      (by show (j.val - 128) + 128 = j.val; omega)

/-- The first contraction at (e, 0, o): the edge's joined row against row o of the message weights. -/
theorem v8_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal))
    (x6 : (⟨S640000, .i32⟩ : BufTy).Contents (Elt Ideal)) (e : Fin 640000) (o : Fin 128) :
    val_main_v8 (F := Ideal) x0 x1 x2 x6 (ix3 e (0 : Fin 1) o) =
      ∑ j : Fin 256, joinEdge x0 x1 x6 e j * x2 (ix2 o j) := by
  rw [val_main_v8_apply]
  refine Finset.sum_congr rfl fun j _ => ?_
  have hl : lidx_main_v8 (ix3 e (0 : Fin 1) o) j = ix3 e (0 : Fin 1) j := by
    funext a; match a with | ⟨0, _⟩ => rfl | ⟨1, _⟩ => rfl | ⟨2, _⟩ => rfl
  have hr : ridx_main_v8 (ix3 e (0 : Fin 1) o) j = ix2 o j := by
    funext a; match a with | ⟨0, _⟩ => rfl | ⟨1, _⟩ => rfl
  rw [hl, hr, v7_at]

/-- The message of edge e, feature o: the first contraction plus the message bias. -/
theorem v11_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 : (⟨S640000, .i32⟩ : BufTy).Contents (Elt Ideal)) (e : Fin 640000) (o : Fin 128) :
    val_main_v11 (F := Ideal) x0 x1 x2 x3 x6 (ix3 e (0 : Fin 1) o) = message x0 x1 x2 x3 x6 e o := by
  rw [val_main_v11_apply, v8_at, val_main_v10_apply, val_main_v9_apply]
  have hi : idx_main_v9 (idx_main_v10 (ix3 e (0 : Fin 1) o)) = ix1 o := by
    funext a; match a with | ⟨0, _⟩ => rfl
  rw [hi]
  rfl

/-! ## The two accumulating scatters and the mean -/

/-- The destination index of edge e, as both scatters read it. -/
theorem v13_at (x7 : (⟨S640000, .i32⟩ : BufTy).Contents (Elt Ideal)) (e : Fin 640000) :
    val_main_v13 (F := Ideal) x7 (ix2 e (0 : Fin 1)) = x7 (ix1 e) := by
  rw [val_main_v13_apply]
  have hi : idx_main_v13 (ix2 e (0 : Fin 1)) = ix1 e := by
    funext a; match a with | ⟨0, _⟩ => rfl
  rw [hi]

/-- The same for the counts' copy of the destination indices. -/
theorem v17_at (x7 : (⟨S640000, .i32⟩ : BufTy).Contents (Elt Ideal)) (e : Fin 640000) :
    val_main_v17 (F := Ideal) x7 (ix2 e (0 : Fin 1)) = x7 (ix1 e) := by
  rw [val_main_v17_apply]
  have hi : idx_main_v17 (ix2 e (0 : Fin 1)) = ix1 e := by
    funext a; match a with | ⟨0, _⟩ => rfl
  rw [hi]

/-- The messages' scatter, as an array: the accumulating scatter of rows into a table with a unit middle axis (the
    program's dimension numbers are that family's), of the messages into the zero array at the destination
    indices. -/
theorem v14_fn (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 x7 : (⟨S640000, .i32⟩ : BufTy).Contents (Elt Ideal)) :
    val_main_v14 (F := Ideal) x0 x1 x2 x3 x6 x7 =
      Ideal.hostScatterAdd (Cert.Rows3.rows3ScatterDims 50000 128 640000
          Facts₀.scatter_S50000x1x128_S640000x1_S640000x1x128_12_0_0_1_wf) (val_main_v12 (F := Ideal))
        (val_main_v13 (F := Ideal) x7) (val_main_v11 (F := Ideal) x0 x1 x2 x3 x6) := by
  unfold val_main_v14 Host.scatterAdd
  exact Ideal.hostScatterAdd_def _ _ _ _ _

/-- The scattered sum at (n, 0, o) is the sum of the messages arriving at n: the zero array's entry plus, over the
    edges whose destination index read signed is n, the edge's message. -/
theorem v14_sum (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 x7 : (⟨S640000, .i32⟩ : BufTy).Contents (Elt Ideal)) (n : Fin 50000) (o : Fin 128) :
    val_main_v12 (F := Ideal) (ix3 n (0 : Fin 1) o) + ∑ e : Fin 640000,
        (if (val_main_v13 (F := Ideal) x7 (ix2 e (0 : Fin 1))).toInt = (n.val : Int)
          then val_main_v11 (F := Ideal) x0 x1 x2 x3 x6 (ix3 e (0 : Fin 1) o) else 0) =
      sumMsg x0 x1 x2 x3 x6 x7 n o := by
  unfold sumMsg
  have h0 : val_main_v12 (F := Ideal) (ix3 n (0 : Fin 1) o) = zeroW := by
    rw [val_main_v12_apply]; rfl
  rw [h0]
  refine congrArg (fun t => zeroW + t) (Finset.sum_congr rfl fun e _ => ?_)
  rw [v13_at, v11_at]

/-- The messages arriving at node n, feature o, summed into a zero array: an edge contributes exactly when its
    destination index, read signed, is n; an index outside the table arrives nowhere. -/
theorem v14_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 x7 : (⟨S640000, .i32⟩ : BufTy).Contents (Elt Ideal)) (n : Fin 50000) (o : Fin 128) :
    val_main_v14 (F := Ideal) x0 x1 x2 x3 x6 x7 (ix3 n (0 : Fin 1) o) = sumMsg x0 x1 x2 x3 x6 x7 n o :=
  (congrFun (v14_fn x0 x1 x2 x3 x6 x7) (ix3 n (0 : Fin 1) o)).trans
    ((Cert.Rows3.scatter3_apply _ _ _ _ n o).trans (v14_sum x0 x1 x2 x3 x6 x7 n o))

/-- The counts' scatter, as an array: the accumulating scatter of entries into a flat vector, of ones into the
    zero array at the destination indices. -/
theorem v18_fn (x7 : (⟨S640000, .i32⟩ : BufTy).Contents (Elt Ideal)) :
    val_main_v18 (F := Ideal) x7 =
      Ideal.hostScatterAdd (Cert.Rows3.vecScatterDims 50000 640000
          Facts₀.scatter_S50000_S640000x1_S640000_n_0_0_1_wf) (val_main_v16 (F := Ideal))
        (val_main_v17 (F := Ideal) x7) (val_main_v15 (F := Ideal)) := by
  unfold val_main_v18 Host.scatterAdd
  exact Ideal.hostScatterAdd_def _ _ _ _ _

/-- The scattered sum of ones at n is the number of edges arriving at n. -/
theorem v18_sum (x7 : (⟨S640000, .i32⟩ : BufTy).Contents (Elt Ideal)) (n : Fin 50000) :
    val_main_v16 (F := Ideal) (ix1 n) + ∑ e : Fin 640000,
        (if (val_main_v17 (F := Ideal) x7 (ix2 e (0 : Fin 1))).toInt = (n.val : Int)
          then val_main_v15 (F := Ideal) (ix1 e) else 0) =
      Cert.Layer.count x7 n := by
  unfold Cert.Layer.count
  have h0 : val_main_v16 (F := Ideal) (ix1 n) = zeroW := by
    rw [val_main_v16_apply]; rfl
  have h1 : ∀ e : Fin 640000, val_main_v15 (F := Ideal) (ix1 e) = oneW := fun e => by
    rw [val_main_v15_apply]; rfl
  rw [h0]
  refine congrArg (fun t => zeroW + t) (Finset.sum_congr rfl fun e _ => ?_)
  rw [v17_at, h1]

/-- The number of edges arriving at node n, as ones summed into a zero array. -/
theorem v18_at (x7 : (⟨S640000, .i32⟩ : BufTy).Contents (Elt Ideal)) (n : Fin 50000) :
    val_main_v18 (F := Ideal) x7 (ix1 n) = Cert.Layer.count x7 n :=
  (congrFun (v18_fn x7) (ix1 n)).trans ((Cert.Rows3.scatter1_apply _ _ _ _ n).trans (v18_sum x7 n))

/-- The divisor at (n, 0, k): the arrival count of n raised to at least one. -/
theorem v22_at (x7 : (⟨S640000, .i32⟩ : BufTy).Contents (Elt Ideal)) (n : Fin 50000) (k : Fin 128) :
    val_main_v22 (F := Ideal) x7 (ix3 n (0 : Fin 1) k) = max (Cert.Layer.count x7 n) oneW := by
  rw [val_main_v22_apply, val_main_v21_apply, val_main_v20_apply]
  have hi : idx_main_v21 (idx_main_v22 (ix3 n (0 : Fin 1) k)) = ix1 n := by
    funext a; match a with | ⟨0, _⟩ => rfl
  rw [hi, v18_at]
  rfl

/-- The mean message at node n, feature k: the summed messages divided by the count raised to at least one. -/
theorem v23_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 x7 : (⟨S640000, .i32⟩ : BufTy).Contents (Elt Ideal)) (n : Fin 50000) (k : Fin 128) :
    val_main_v23 (F := Ideal) x0 x1 x2 x3 x6 x7 (ix3 n (0 : Fin 1) k) = meanRef x0 x1 x2 x3 x6 x7 n k := by
  rw [val_main_v23_apply, v14_at, v22_at]
  rfl

/-! ## The second join, the update and the cut at zero -/

/-- The joined row of node n at column j: the node's own features on the first 128 columns, its mean message on
    the last 128. -/
theorem v24_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x6 x7 : (⟨S640000, .i32⟩ : BufTy).Contents (Elt Ideal)) (n : Fin 50000) (j : Fin 256) :
    val_main_v24 (F := Ideal) x0 x1 x2 x3 x6 x7 (ix3 n (0 : Fin 1) j) = joinNode x0 x1 x2 x3 x6 x7 n j := by
  unfold val_main_v24 joinNode
  by_cases h : j.val < 128
  · rw [dif_pos h]
    exact concatenate_pair_apply_left (t := S50000x1x256) (s₁ := S50000x1x128) (s₂ := S50000x1x128)
      (2 : Fin 3) _ _ _ (ix3 n (0 : Fin 1) j) rfl
      (ix3 n (0 : Fin 1) (⟨j.val, h⟩ : Fin 128))
      (fun b => by match b with | ⟨0, _⟩ => rfl | ⟨1, _⟩ => rfl | ⟨2, _⟩ => rfl)
  · rw [dif_neg h]
    rw [concatenate_pair_apply_right (t := S50000x1x256) (s₁ := S50000x1x128) (s₂ := S50000x1x128)
      (2 : Fin 3) _ _ _ (ix3 n (0 : Fin 1) j) rfl rfl
      (ix3 n (0 : Fin 1) (⟨j.val - 128, by have := j.isLt; omega⟩ : Fin 128))
      (fun b hb => by
        match b with
        | ⟨0, _⟩ => rfl
        | ⟨1, _⟩ => rfl
        | ⟨2, _⟩ => exact absurd rfl hb)
      (by show (j.val - 128) + 128 = j.val; omega)]
    exact v23_at x0 x1 x2 x3 x6 x7 n ⟨j.val - 128, by have := j.isLt; omega⟩

/-- The second contraction at (n, 0, o): the node's joined row against row o of the update weights. -/
theorem v25_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal))
    (x6 x7 : (⟨S640000, .i32⟩ : BufTy).Contents (Elt Ideal)) (n : Fin 50000) (o : Fin 128) :
    val_main_v25 (F := Ideal) x0 x1 x2 x3 x4 x6 x7 (ix3 n (0 : Fin 1) o) =
      ∑ j : Fin 256, joinNode x0 x1 x2 x3 x6 x7 n j * x4 (ix2 o j) := by
  rw [val_main_v25_apply]
  refine Finset.sum_congr rfl fun j _ => ?_
  have hl : lidx_main_v25 (ix3 n (0 : Fin 1) o) j = ix3 n (0 : Fin 1) j := by
    funext a; match a with | ⟨0, _⟩ => rfl | ⟨1, _⟩ => rfl | ⟨2, _⟩ => rfl
  have hr : ridx_main_v25 (ix3 n (0 : Fin 1) o) j = ix2 o j := by
    funext a; match a with | ⟨0, _⟩ => rfl | ⟨1, _⟩ => rfl
  rw [hl, hr, v24_at]

/-- The update bias at (n, 0, o). -/
theorem v27_at (x5 : (⟨S128, .f32⟩ : BufTy).Contents (Elt Ideal)) (n : Fin 50000) (o : Fin 128) :
    val_main_v27 (F := Ideal) x5 (ix3 n (0 : Fin 1) o) = x5 (ix1 o) := by
  rw [val_main_v27_apply, val_main_v26_apply]
  have hi : idx_main_v26 (idx_main_v27 (ix3 n (0 : Fin 1) o)) = ix1 o := by
    funext a; match a with | ⟨0, _⟩ => rfl
  rw [hi]

/-- The result at (n, 0, o): the second contraction plus the update bias, cut off below at zero. -/
theorem v29_at (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x5 : (⟨S128, .f32⟩ : BufTy).Contents (Elt Ideal))
    (x6 x7 : (⟨S640000, .i32⟩ : BufTy).Contents (Elt Ideal)) (n : Fin 50000) (o : Fin 128) :
    val_main_v29 (F := Ideal) x0 x1 x2 x3 x4 x5 x6 x7 (ix3 n (0 : Fin 1) o) =
      max ((∑ j : Fin 256, joinNode x0 x1 x2 x3 x6 x7 n j * x4 (ix2 o j)) + x5 (ix1 o)) zeroW := by
  have hz : val_main_call0_v0 (F := Ideal) (ix3 n (0 : Fin 1) o) = zeroW := by
    rw [val_main_call0_v0_apply]; rfl
  rw [val_main_v29_apply, val_main_v28_apply, v25_at, v27_at, hz]
  rfl

/-- THE REFERENCE'S RESULT IS THE LAYER, transform-then-aggregate spelling: every entry of the last operation's
    value is the closed formula. -/
theorem ref_eq (x0 : (⟨S50000x1x128, .f32⟩ : BufTy).Contents (Elt Ideal))
    (x1 : (⟨S640000x1x128, .f32⟩ : BufTy).Contents (Elt Ideal))
    (x2 : (⟨S128x256, .f32⟩ : BufTy).Contents (Elt Ideal)) (x3 : (⟨S128, .f32⟩ : BufTy).Contents (Elt Ideal))
    (x4 : (⟨S128x256, .f32⟩ : BufTy).Contents (Elt Ideal)) (x5 : (⟨S128, .f32⟩ : BufTy).Contents (Elt Ideal))
    (x6 x7 : (⟨S640000, .i32⟩ : BufTy).Contents (Elt Ideal)) :
    Cert.ReferenceIdeal.Read.val_main_v29 (F := Ideal) x0 x1 x2 x3 x4 x5 x6 x7 =
      Cert.Layer.refOut x0 x1 x2 x3 x4 x5 x6 x7 := by
  funext i
  -- every index of the result is (n, 0, o): the middle axis has the one coordinate 0
  obtain ⟨n, o, rfl⟩ : ∃ (n : Fin 50000) (o : Fin 128), i = ix3 n (0 : Fin 1) o :=
    ⟨i 0, i 2, by
      funext a
      match a with
      | ⟨0, _⟩ => rfl
      | ⟨1, _⟩ => exact Subsingleton.elim (α := Fin 1) _ _
      | ⟨2, _⟩ => rfl⟩
  rw [v29_at]
  rfl

end Cert.ReferenceIdeal.RefValue

end
-- ==== Proof.LibSegmentLinear.lean ====
/-
  Summing linear messages into a node equals applying the linear map to the summed features.

  A graph layer sends, along every edge e, the message
      (∑ k, g e k * w1 k) + (∑ k, f e k * w2 k) + b
  and a node receives the sum of the messages of the edges that hit it.  Because the message is an
  affine function of the edge's features, the node may instead first add up the raw features of the
  edges that hit it, apply the linear map once, and add the bias once per hit:
      (∑ k, (∑ e hit, g e k) * w1 k) + (∑ k, (∑ e hit, f e k) * w2 k) + (number of hits) * b.
  Over the real numbers this is distributivity and an exchange of the order of summation.  Over the
  extended reals distributivity fails at the infinities, so the identity is stated for entries that
  are coercions of real numbers: both sides are then the coercion of the same real number, and the
  identity is inherited from the reals.
-/
import Mathlib.Data.EReal.Basic
import Mathlib.Algebra.BigOperators.Ring.Finset
import Mathlib.Algebra.BigOperators.Group.Finset.Sigma

namespace Cert.SegmentLinear

open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a coerced real and zero is the coercion of the choice between the real and zero. -/
theorem coe_ite (p : Prop) [Decidable p] (x : ℝ) :
    (if p then (x : EReal) else 0) = ((if p then x else 0 : ℝ) : EReal) := by
  split_ifs <;> simp

section Real

variable {ι κ : Type} [Fintype ι] [Fintype κ]

/-- The common value of both sides, as a real number: the sum over the edges that hit the node of
the affine message of the edge. -/
def messageSum (hit : ι → Prop) [DecidablePred hit] (g f : ι → κ → ℝ) (w1 w2 : κ → ℝ) (b : ℝ) : ℝ :=
  ∑ e, if hit e then ((∑ k, g e k * w1 k) + (∑ k, f e k * w2 k)) + b else 0

/-- The law over the reals: the linear map applied to the summed features, plus the bias once per
hit, is the sum of the messages.  Distributivity of the product over the inner sum, an exchange of
the two summations, and the choice pulled out of the product and of the sum. -/
theorem segment_sum_linear_aux (hit : ι → Prop) [DecidablePred hit] (g f : ι → κ → ℝ)
    (w1 w2 : κ → ℝ) (b : ℝ) :
    (∑ k, (∑ e, if hit e then g e k else 0) * w1 k)
      + (∑ k, (∑ e, if hit e then f e k else 0) * w2 k)
      + (∑ e, if hit e then (1 : ℝ) else 0) * b
    = messageSum hit g f w1 w2 b := by
  unfold messageSum
  have hlin : ∀ (h : ι → κ → ℝ) (w : κ → ℝ),
      (∑ k, (∑ e, if hit e then h e k else 0) * w k)
        = ∑ e, if hit e then (∑ k, h e k * w k) else 0 := by
    intro h w
    calc (∑ k, (∑ e, if hit e then h e k else 0) * w k)
        = ∑ k, ∑ e, if hit e then h e k * w k else 0 := by
          refine Finset.sum_congr rfl fun k _ => ?_
          rw [Finset.sum_mul]
          refine Finset.sum_congr rfl fun e _ => ?_
          split_ifs
          · rfl
          · exact zero_mul _
      _ = ∑ e, ∑ k, if hit e then h e k * w k else 0 := Finset.sum_comm
      _ = ∑ e, if hit e then (∑ k, h e k * w k) else 0 := by
          refine Finset.sum_congr rfl fun e _ => ?_
          split_ifs
          · rfl
          · exact Finset.sum_const_zero
  have hb : (∑ e, if hit e then (1 : ℝ) else 0) * b = ∑ e, if hit e then b else 0 := by
    rw [Finset.sum_mul]
    refine Finset.sum_congr rfl fun e _ => ?_
    split_ifs
    · exact one_mul _
    · exact zero_mul _
  rw [hlin g w1, hlin f w2, hb, ← Finset.sum_add_distrib, ← Finset.sum_add_distrib]
  refine Finset.sum_congr rfl fun e _ => ?_
  split_ifs
  · rfl
  · simp

end Real

section EReal

variable {ι κ : Type} [Fintype ι] [Fintype κ]

/-- The aggregate-then-transform side is the coercion of its real counterpart. -/
theorem lhs_eq_coe (hit : ι → Prop) [DecidablePred hit] (g f : ι → κ → ℝ)
    (w1 w2 : κ → ℝ) (b : ℝ) :
    (∑ k, (∑ e, if hit e then (g e k : EReal) else 0) * (w1 k : EReal))
      + (∑ k, (∑ e, if hit e then (f e k : EReal) else 0) * (w2 k : EReal))
      + (∑ e, if hit e then (1 : EReal) else 0) * (b : EReal)
    = (((∑ k, (∑ e, if hit e then g e k else 0) * w1 k)
      + (∑ k, (∑ e, if hit e then f e k else 0) * w2 k)
      + (∑ e, if hit e then (1 : ℝ) else 0) * b : ℝ) : EReal) := by
  have hone : ∀ e, (if hit e then (1 : EReal) else 0) = ((if hit e then (1 : ℝ) else 0 : ℝ) : EReal) := by
    intro e
    rw [← EReal.coe_one]
    exact coe_ite _ _
  simp only [hone, coe_ite, ← coe_sum, ← EReal.coe_mul, ← EReal.coe_add]

/-- The transform-then-aggregate side is the coercion of the real sum of messages. -/
theorem rhs_eq_coe (hit : ι → Prop) [DecidablePred hit] (g f : ι → κ → ℝ)
    (w1 w2 : κ → ℝ) (b : ℝ) :
    (∑ e, if hit e then
        ((∑ k, (g e k : EReal) * (w1 k : EReal)) + (∑ k, (f e k : EReal) * (w2 k : EReal)))
          + (b : EReal) else 0)
    = ((messageSum hit g f w1 w2 b : ℝ) : EReal) := by
  unfold messageSum
  simp only [← EReal.coe_mul, ← coe_sum, ← EReal.coe_add, coe_ite]

/-- **The law.**  For real entries (read in the extended reals), the linear map applied to the
features summed over the edges that hit a node, plus the bias once per hit, equals the sum over
those edges of the affine message of each edge. -/
theorem segment_sum_linear (hit : ι → Prop) [DecidablePred hit] (g f : ι → κ → ℝ)
    (w1 w2 : κ → ℝ) (b : ℝ) :
    (∑ k, (∑ e, if hit e then (g e k : EReal) else 0) * (w1 k : EReal))
      + (∑ k, (∑ e, if hit e then (f e k : EReal) else 0) * (w2 k : EReal))
      + (∑ e, if hit e then (1 : EReal) else 0) * (b : EReal)
    = ∑ e, if hit e then
        ((∑ k, (g e k : EReal) * (w1 k : EReal)) + (∑ k, (f e k : EReal) * (w2 k : EReal)))
          + (b : EReal) else 0 := by
  rw [lhs_eq_coe, rhs_eq_coe]
  exact congrArg _ (segment_sum_linear_aux hit g f w1 w2 b)

/-- The law with a leading zero in front of every sum, as produced by a product accumulated into a
zero accumulator or by a scatter into a zero array. -/
theorem segment_sum_linear' (hit : ι → Prop) [DecidablePred hit] (g f : ι → κ → ℝ)
    (w1 w2 : κ → ℝ) (b : ℝ) :
    ((0 + ∑ k, (0 + ∑ e, if hit e then (g e k : EReal) else 0) * (w1 k : EReal))
      + (0 + ∑ k, (0 + ∑ e, if hit e then (f e k : EReal) else 0) * (w2 k : EReal)))
      + (0 + ∑ e, if hit e then (1 : EReal) else 0) * (b : EReal)
    = 0 + ∑ e, if hit e then
        ((∑ k, (g e k : EReal) * (w1 k : EReal)) + (∑ k, (f e k : EReal) * (w2 k : EReal)))
          + (b : EReal) else 0 := by
  simp only [zero_add]
  exact segment_sum_linear hit g f w1 w2 b

/-- The sum of the messages is a real number, given explicitly, so a caller may continue in the
reals. -/
theorem segment_sum_linear_real (hit : ι → Prop) [DecidablePred hit] (g f : ι → κ → ℝ)
    (w1 w2 : κ → ℝ) (b : ℝ) :
    (∑ e, if hit e then
        ((∑ k, (g e k : EReal) * (w1 k : EReal)) + (∑ k, (f e k : EReal) * (w2 k : EReal)))
          + (b : EReal) else 0)
    = ((∑ e, if hit e then ((∑ k, g e k * w1 k) + (∑ k, f e k * w2 k)) + b else 0 : ℝ) : EReal) :=
  rhs_eq_coe hit g f w1 w2 b

/-- The aggregate-then-transform side is the same real number. -/
theorem segment_sum_linear_real_left (hit : ι → Prop) [DecidablePred hit] (g f : ι → κ → ℝ)
    (w1 w2 : κ → ℝ) (b : ℝ) :
    (∑ k, (∑ e, if hit e then (g e k : EReal) else 0) * (w1 k : EReal))
      + (∑ k, (∑ e, if hit e then (f e k : EReal) else 0) * (w2 k : EReal))
      + (∑ e, if hit e then (1 : EReal) else 0) * (b : EReal)
    = ((∑ e, if hit e then ((∑ k, g e k * w1 k) + (∑ k, f e k * w2 k)) + b else 0 : ℝ) : EReal) :=
  (segment_sum_linear hit g f w1 w2 b).trans (segment_sum_linear_real hit g f w1 w2 b)

end EReal

end Cert.SegmentLinear
-- ==== Proof.Law.lean ====
/-
  The two spellings of the layer agree on real entries.

  One spelling first adds up, for every node, the raw features of the edges that arrive there and then
  applies the message map once; the other applies the message map to every edge and adds up the
  messages.  The message is affine in the edge's features, so on real entries the two sums agree
  (distributivity and an exchange of the order of summation); the mean divides the same numerator by
  the same denominator; and the second stage is the same sum over 256 joined columns, written once as
  one sum and once as the sum of its two halves of 128.
-/
import proofs.«148901_j5403068859071_2_alg».proof.Proof.Spec
import proofs.«148901_j5403068859071_2_alg».proof.Proof.LibSegmentLinear
import Idealize.ShloMosaic.PureOps.Ideal.Laws

noncomputable section

open scoped BigOperators

namespace Cert.Layer

open Idealize.ShloMosaic Idealize.ShloMosaic.ValueIdx

/-! ## The two constants -/

/-- The word 0x00000000 denotes zero. -/
theorem zeroW_eq : zeroW = 0 := Ideal.ofBits_zero_f32

/-- The word 0x3F800000 (sign 0, exponent 127, significand 0) denotes 2 ^ 23 * 2 ^ (-23) = 1. -/
theorem oneW_eq : oneW = 1 := by
  simp [oneW, Ideal.ofBits, Ideal.ieee, -EReal.coe_mul]
  norm_num

/-! ## A sum over 256 columns is the sum over its two halves -/

/-- A sum over 256 columns is the sum over the left 128 plus the sum over the right 128. -/
theorem sum_halves {M : Type*} [AddCommMonoid M] (F : Fin 256 → M) :
    ∑ j : Fin 256, F j = (∑ k : Fin 128, F (lo k)) + (∑ k : Fin 128, F (hi k)) :=
  Fin.sum_univ_add (a := 128) (b := 128) F

section Whole
variable (nf : (⟨3, ![50000, 1, 128]⟩ : Shape).Idx → EReal) (ef : (⟨3, ![640000, 1, 128]⟩ : Shape).Idx → EReal)
  (wm : (⟨2, ![128, 256]⟩ : Shape).Idx → EReal) (bm : (⟨1, ![128]⟩ : Shape).Idx → EReal)
  (wa : (⟨2, ![128, 256]⟩ : Shape).Idx → EReal) (ba : (⟨1, ![128]⟩ : Shape).Idx → EReal)
  (src dst : IVec ⟨1, ![640000]⟩ 32)

/-- On the left half the joined features of an edge are its source node's features. -/
theorem joinEdge_lo (e : Fin 640000) (k : Fin 128) :
    joinEdge nf ef src e (lo k) = nf (ix3 (srcRow src e) (0 : Fin 1) k) := by
  unfold joinEdge
  rw [dif_pos (show (lo k).val < 128 from k.isLt)]
  rfl

/-- On the right half the joined features of an edge are the edge's own features. -/
theorem joinEdge_hi (e : Fin 640000) (k : Fin 128) :
    joinEdge nf ef src e (hi k) = ef (ix3 e (0 : Fin 1) k) := by
  unfold joinEdge
  have hk : ¬ (hi k).val < 128 := by simp [hi]
  rw [dif_neg hk]
  congr 2
  exact Fin.ext (by simp [hi])

/-- On the left half the joined features of a node are its own features. -/
theorem joinNode_lo (n : Fin 50000) (k : Fin 128) :
    joinNode nf ef wm bm src dst n (lo k) = nf (ix3 n (0 : Fin 1) k) := by
  unfold joinNode
  rw [dif_pos (show (lo k).val < 128 from k.isLt)]
  rfl

/-- On the right half the joined features of a node are its mean message. -/
theorem joinNode_hi (n : Fin 50000) (k : Fin 128) :
    joinNode nf ef wm bm src dst n (hi k) = meanRef nf ef wm bm src dst n k := by
  unfold joinNode
  have hk : ¬ (hi k).val < 128 := by simp [hi]
  rw [dif_neg hk]
  congr 1
  exact Fin.ext (by simp [hi])

/-- The message of an edge with its sum over 256 joined columns split into the source node's half and
the edge's half. -/
theorem message_split (e : Fin 640000) (o : Fin 128) :
    message nf ef wm bm src e o
      = ((∑ j : Fin 128, nf (ix3 (srcRow src e) (0 : Fin 1) j) * wm (ix2 o (lo j)))
          + (∑ j : Fin 128, ef (ix3 e (0 : Fin 1) j) * wm (ix2 o (hi j)))) + bm (ix1 o) := by
  unfold message
  rw [sum_halves]
  simp only [joinEdge_lo, joinEdge_hi]

end Whole

/-! ## The numerators agree on real entries -/

/-- For real entries, the message map applied to the aggregated features of a node, plus the bias
once per arriving edge, is the sum of the messages of the arriving edges. -/
theorem numerator_eq (nf' : (⟨3, ![50000, 1, 128]⟩ : Shape).Idx → ℝ) (ef' : (⟨3, ![640000, 1, 128]⟩ : Shape).Idx → ℝ)
    (wm' : (⟨2, ![128, 256]⟩ : Shape).Idx → ℝ) (bm' : (⟨1, ![128]⟩ : Shape).Idx → ℝ)
    (src dst : IVec ⟨1, ![640000]⟩ 32) (n : Fin 50000) (k : Fin 128) :
    ((∑ j : Fin 128, aggSrc (fun i => (nf' i : EReal)) src dst n j * (wm' (ix2 k (lo j)) : EReal))
        + (∑ j : Fin 128, aggEdge (fun i => (ef' i : EReal)) dst n j * (wm' (ix2 k (hi j)) : EReal)))
      + count dst n * (bm' (ix1 k) : EReal)
    = sumMsg (fun i => (nf' i : EReal)) (fun i => (ef' i : EReal)) (fun i => (wm' i : EReal))
        (fun i => (bm' i : EReal)) src dst n k := by
  unfold aggSrc aggEdge count sumMsg
  simp only [message_split, zeroW_eq, oneW_eq, zero_add]
  exact Cert.SegmentLinear.segment_sum_linear (hit := fun e => arrives dst n e)
    (g := fun e j => nf' (ix3 (srcRow src e) (0 : Fin 1) j)) (f := fun e j => ef' (ix3 e (0 : Fin 1) j))
    (w1 := fun j => wm' (ix2 k (lo j))) (w2 := fun j => wm' (ix2 k (hi j))) (b := bm' (ix1 k))

/-! ## The mean messages agree, and the whole layer -/

section Whole
variable (nf : (⟨3, ![50000, 1, 128]⟩ : Shape).Idx → EReal) (ef : (⟨3, ![640000, 1, 128]⟩ : Shape).Idx → EReal)
  (wm : (⟨2, ![128, 256]⟩ : Shape).Idx → EReal) (bm : (⟨1, ![128]⟩ : Shape).Idx → EReal)
  (wa : (⟨2, ![128, 256]⟩ : Shape).Idx → EReal) (ba : (⟨1, ![128]⟩ : Shape).Idx → EReal)
  (src dst : IVec ⟨1, ![640000]⟩ 32)

/-- The mean of the messages arriving at a node is the node-level mean message of the aggregated
tables: the numerators agree on real entries, and both divide by the arrival count raised to at least
one. -/
theorem meanRef_eq_meanMsg
    (hnf : ∀ i, ∃ r : ℝ, nf i = (r : EReal)) (hef : ∀ i, ∃ r : ℝ, ef i = (r : EReal))
    (hwm : ∀ i, ∃ r : ℝ, wm i = (r : EReal)) (hbm : ∀ i, ∃ r : ℝ, bm i = (r : EReal))
    (n : Fin 50000) (k : Fin 128) :
    meanRef nf ef wm bm src dst n k
      = meanMsg (R := 50000)
          (fun j => aggSrc nf src dst (j 0) (j 1))
          (fun j => aggEdge ef dst (j 0) (j 1))
          (fun j => count dst (j 0))
          (fun j => wm (ix2 (j 1) (lo (j 0))))
          (fun j => wm (ix2 (j 1) (hi (j 0))))
          (fun j => bm (ix1 (j 1))) n k := by
  choose nf' hnf' using hnf
  choose ef' hef' using hef
  choose wm' hwm' using hwm
  choose bm' hbm' using hbm
  obtain rfl : nf = fun i => (nf' i : EReal) := funext hnf'
  obtain rfl : ef = fun i => (ef' i : EReal) := funext hef'
  obtain rfl : wm = fun i => (wm' i : EReal) := funext hwm'
  obtain rfl : bm = fun i => (bm' i : EReal) := funext hbm'
  unfold meanRef
  rw [← numerator_eq nf' ef' wm' bm' src dst n k]
  rfl

/-- **The two spellings agree.**  When the node features, the edge features and the message weights
and bias are real, transforming every edge and then aggregating gives the same layer output as
aggregating the raw features and transforming once.  The second stage needs no hypothesis: it is one
sum over 256 joined columns regrouped as the sum of its two halves. -/
theorem refOut_eq_kernelOut
    (hnf : ∀ i, ∃ r : ℝ, nf i = (r : EReal)) (hef : ∀ i, ∃ r : ℝ, ef i = (r : EReal))
    (hwm : ∀ i, ∃ r : ℝ, wm i = (r : EReal)) (hbm : ∀ i, ∃ r : ℝ, bm i = (r : EReal)) :
    refOut nf ef wm bm wa ba src dst = kernelOut nf ef wm bm wa ba src dst := by
  funext i
  unfold refOut kernelOut update
  rw [sum_halves]
  have hlo := joinNode_lo nf ef wm bm src dst (i 0)
  have hhi := joinNode_hi nf ef wm bm src dst (i 0)
  have hmean := meanRef_eq_meanMsg nf ef wm bm src dst hnf hef hwm hbm (i 0)
  simp only [hlo, hhi, hmean]

end Whole

end Cert.Layer

end
-- ==== Proof.FiniteInputs.lean ====
/-
  From the precondition to "every float entry is a real number".

  The precondition takes, for each of the six float arguments, the absolute value of every entry,
  compares it with the word of plus infinity by "less than", reduces the comparisons by "and" over
  all axes to one bit, and ands the six bits together.  Its value being 1 therefore says that every
  entry x of every float argument has |x| < +∞.  In the extended reals |x| is max x (-x), which is
  +∞ at both infinities (the extended real that stands for a not-a-number is -∞), so |x| < +∞ holds
  exactly when x is the coercion of a real number.
-/
import proofs.«148901_j5403068859071_2_alg».proof.Pre_finite_inputs
import proofs.«148901_j5403068859071_2_alg».proof.Proof.Gen.Pre_finite_inputs
import Idealize.ShloMosaic.PureOps.Ideal
import Idealize.ShloMosaic.Lib.ReduceAll
import Idealize.ShloMosaic.Lib.ValueIdx

namespace Cert.FiniteInputs

open Idealize.ShloMosaic

/-- The word 0x7F800000 (sign 0, exponent all ones, significand 0) denotes plus infinity. -/
theorem inf_word : Ideal.ofBits .f32 0x7F800000#32 = (⊤ : EReal) := by
  simp [Ideal.ofBits, Ideal.ieee]

/-- An extended real whose absolute value max x (-x) is below plus infinity is a real number: at
either infinity the maximum is plus infinity. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: if the comparison "|x| < the word of plus infinity" gives the bit 1, then x is
a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  change Ideal.cmp .olt (max x (-x)) (Ideal.ofBits .f32 0x7F800000#32) = 1#1 at h
  rw [inf_word] at h
  by_contra hn
  simp [Ideal.cmp, hn] at h

/-- The shape of a scalar has exactly one index. -/
instance subsingleton_scalar_idx : Subsingleton Cert.Pre_finite_inputs.S_.Idx := ⟨fun a b => funext fun d => d.elim0⟩

/-- One argument: if the "and" over all axes of the comparisons "|x i| < +∞" is 1, every entry of x
is a real number. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x)
          (broadcastInDim s ![] bc (constant (F := Ideal) Cert.Pre_finite_inputs.S_ .f32 0x7F800000#32)))
        init hr hu j = 1#1) :
    ∀ i, ∃ r : ℝ, x i = (r : EReal) := by
  intro i
  exact real_of_cmp (x i) (Host.reduce_andi_all _ init hr hu j e i)

variable [Cert.Pre_finite_inputs.Facts]

/-- The precondition's value being 1 makes every entry of the six float arguments a real number. -/
theorem real_of_pre (a0 : FVec Ideal Cert.Pre_finite_inputs.S50000x1x128 .f32)
    (a1 : FVec Ideal Cert.Pre_finite_inputs.S640000x1x128 .f32)
    (a2 : FVec Ideal Cert.Pre_finite_inputs.S128x256 .f32) (a3 : FVec Ideal Cert.Pre_finite_inputs.S128 .f32)
    (a4 : FVec Ideal Cert.Pre_finite_inputs.S128x256 .f32) (a5 : FVec Ideal Cert.Pre_finite_inputs.S128 .f32)
    (a6 a7 : IVec Cert.Pre_finite_inputs.S640000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5⟩

end Cert.FiniteInputs
-- ==== Proof.lean ====
/-
  One layer of message passing with mean aggregation: the kernel program and the reference compute the same array.

  Every edge carries 128 features and points from a source node to a destination node; every node carries 128
  features. The reference forms, for every edge, the affine message of the source node's features joined with the
  edge's own (a 256-wide row against a 128 × 256 weight matrix, plus a bias), sums the messages arriving at each node,
  divides by the number of arrivals raised to at least one, joins that mean to the node's own features, applies a
  second affine map and cuts the result off below at zero.

  The kernel program instead sums, per node, the raw source features and the raw edge features of the arriving
  edges and counts the arrivals (on the host, by the same lookup and the same accumulating scatters), and only then,
  in one kernel over five blocks of 10000 nodes, applies the message map ONCE per node — the two halves of the weight
  matrix against the two aggregated tables, plus the count times the bias —, divides, and applies the update map.

  The two agree because the message is affine: a sum of affine images is the affine image of the sum, with the
  bias taken once per summand. On the extended reals that is distributivity of a product over a sum, which needs
  every entry to be a real number: this is where the precondition (all float inputs finite) is used. Everything
  after the mean — the second map, split into its two halves, and the cut-off — is a regrouping of one finite sum
  and needs nothing.

  The modules: Spec (both spellings, index by index), LibSegmentLinear and Law (the identity between them), Body and
  Blocks (what the kernel's body stores, and that a point's block is a block of one array-level function), KValue
  and KRun (the kernel program's run read as that function of the arguments; HostTerms reads its host lines),
  RefValue (the reference's run read as the other spelling), FiniteInputs (the precondition gives real entries).
-/
import proofs.«148901_j5403068859071_2_alg».proof.Defs
import proofs.«148901_j5403068859071_2_alg».proof.Proof.Gen.Kernel
import proofs.«148901_j5403068859071_2_alg».proof.Proof.Gen.Kernel.Frame
import proofs.«148901_j5403068859071_2_alg».proof.Proof.Gen.KernelIdeal
import proofs.«148901_j5403068859071_2_alg».proof.Proof.Gen.KernelIdeal.Frame
import proofs.«148901_j5403068859071_2_alg».proof.Proof.Gen.ReferenceIdeal
import proofs.«148901_j5403068859071_2_alg».proof.Proof.Gen.ReferenceIdeal.Run
import proofs.«148901_j5403068859071_2_alg».proof.Proof.Gen.ReferenceIdeal.Read
import proofs.«148901_j5403068859071_2_alg».proof.Proof.Gen.Pre_finite_inputs
import proofs.«148901_j5403068859071_2_alg».proof.Proof.KRun
import proofs.«148901_j5403068859071_2_alg».proof.Proof.RefValue
import proofs.«148901_j5403068859071_2_alg».proof.Proof.Law
import proofs.«148901_j5403068859071_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel program ends at "aggregate, then transform" of them and the reference at
    "transform, then aggregate"; the entries being real numbers, the two are one array. -/
theorem algebraic : Cert.algebraic_KernelIdeal_ReferenceIdeal := by
  intro m ρ m' ρ' hpre hagree
  refine ⟨fun c => Cert.Layer.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨r0, r1, r2, r3, -, -⟩ := Cert.FiniteInputs.real_of_pre _ _ _ _ _ _ _ _ (hpre c)
  rw [Cert.ReferenceIdeal.Read.val_main_v29_eq, Cert.ReferenceIdeal.RefValue.ref_eq, e0, e1, e2, e3, e4, e5, e6, e7]
  exact Cert.Layer.refOut_eq_kernelOut _ _ _ _ _ _ _ _ r0 r1 r2 r3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
